-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16000x128 : Shape := ⟨2, ![16000, 128]⟩
abbrev S512000 : Shape := ⟨1, ![512000]⟩
abbrev S64x128 : Shape := ⟨2, ![64, 128]⟩
abbrev S64 : Shape := ⟨1, ![64]⟩
abbrev S128x128 : Shape := ⟨2, ![128, 128]⟩
abbrev S128 : Shape := ⟨1, ![128]⟩
abbrev S16000 : Shape := ⟨1, ![16000]⟩
abbrev S_ : Shape := ⟨0, ![]⟩

class Facts : Prop where
  bcast_S_S16000x128 : S_.BroadcastsInDim S16000x128 (![] : Fin 0 → Fin S16000x128.rank)
  reducesTo_S16000x128_S_d0_1 : S16000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16000 : S_.BroadcastsInDim S16000 (![] : Fin 0 → Fin S16000.rank)
  reducesTo_S16000_S_d0 : S16000.ReducesTo [0] S_

variable [Facts]

def fn_part2 {F : FTy → Type} [FloatOps F] (main_arg9 : FVec F S16000 .f32) (main_arg10 : FVec F S64 .f32) (main_arg11 : FVec F S64 .f32) (main_v33 : IVec S_ 1) : IVec S_ 1 :=
  let main_v34 : FVec F S16000 .f32 := Host.absf main_arg9
  let main_cst_12 : FVec F S_ .f32 := constant S_ .f32 0x7F800000#32
  let main_v35 : FVec F S16000 .f32 := broadcastInDim S16000 ![] bcast_S_S16000 main_cst_12
  let main_v36 : IVec S16000 1 := cmpf .olt main_v34 main_v35
  let main_c_13 : IVec S_ 1 := constantI S_ 1 1#1
  let main_v37 : IVec S_ 1 := (fun x v => Host.reduce IntOp.andi x v reducesTo_S16000_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128 .f32) (main_arg7 : FVec F S64x128 .f32) (main_arg8 : FVec F S64 .f32) (main_arg9 : FVec F S16000 .f32) (main_arg10 : FVec F S64 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S16000x128 .f32) (main_arg1 : IVec S512000 32) (main_arg2 : IVec S512000 32) (main_arg3 : FVec F S64x128 .f32) (main_arg4 : FVec F S64 .f32) (main_arg5 : FVec F S128x128 .f32) (main_arg6 : FVec F S128 .f32) (main_arg7 : FVec F S64x128 .f32) (main_arg8 : FVec F S64 .f32) (main_arg9 : FVec F S16000 .f32) (main_arg10 : FVec F S64 .f32) (main_arg11 : FVec F S64 .f32) : IVec S_ 1 :=
  let main_v0 : FVec F S16000x128 .f32 := Host.absf main_arg0
  let main_cst : FVec F S_ .f32 := constant S_ .f32 0x7F800000#32
  let main_v1 : FVec F S16000x128 .f32 := broadcastInDim S16000x128 ![] bcast_S_S16000x128 main_cst
  let main_v2 : IVec S16000x128 1 := cmpf .olt main_v0 main_v1
  let main_c : IVec S_ 1 := constantI S_ 1 1#1
  let main_v3 : IVec S_ 1 := (fun x v => Host.reduce IntOp.andi x v reducesTo_S16000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S16000x128 : Shape := ⟨2, ![16000, 128]⟩
abbrev S512000 : Shape := ⟨1, ![512000]⟩
abbrev S64x128 : Shape := ⟨2, ![64, 128]⟩
abbrev S64 : Shape := ⟨1, ![64]⟩
abbrev S128x128 : Shape := ⟨2, ![128, 128]⟩
abbrev S128 : Shape := ⟨1, ![128]⟩
abbrev S16000 : Shape := ⟨1, ![16000]⟩
abbrev S128x64 : Shape := ⟨2, ![128, 64]⟩
abbrev S16000x64 : Shape := ⟨2, ![16000, 64]⟩
abbrev S1x64 : Shape := ⟨2, ![1, 64]⟩
abbrev S_ : Shape := ⟨0, ![]⟩
abbrev S512000x1 : Shape := ⟨2, ![512000, 1]⟩
abbrev S512000x128 : Shape := ⟨2, ![512000, 128]⟩
abbrev S1x128 : Shape := ⟨2, ![1, 128]⟩
abbrev S16000x1 : Shape := ⟨2, ![16000, 1]⟩
abbrev S16000x192 : Shape := ⟨2, ![16000, 192]⟩
abbrev S16000x16000 : Shape := ⟨2, ![16000, 16000]⟩
abbrev S1000x192 : Shape := ⟨2, ![1000, 192]⟩
abbrev S3200x192 : Shape := ⟨2, ![3200, 192]⟩
abbrev S1000x3200 : Shape := ⟨2, ![1000, 3200]⟩

abbrev nBuf : Space → Nat
  | .hbm => 98
  | .vmem => 6
  | .smem => 0
  | _ => 0

abbrev bufTy : (tb : Table) → Fin (tcTables nBuf tb) → BufTy
  | .hbm, ⟨0, _⟩ => ⟨S16000x128, .f32⟩
  | .hbm, ⟨1, _⟩ => ⟨S512000, .i32⟩
  | .hbm, ⟨2, _⟩ => ⟨S512000, .i32⟩
  | .hbm, ⟨3, _⟩ => ⟨S64x128, .f32⟩
  | .hbm, ⟨4, _⟩ => ⟨S64, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S16000, .f32⟩
  | .hbm, ⟨10, _⟩ => ⟨S64, .f32⟩
  | .hbm, ⟨11, _⟩ => ⟨S64, .f32⟩
  | .hbm, ⟨12, _⟩ => ⟨S128x64, .f32⟩
  | .hbm, ⟨13, _⟩ => ⟨S16000x64, .f32⟩
  | .hbm, ⟨14, _⟩ => ⟨S1x64, .f32⟩
  | .hbm, ⟨15, _⟩ => ⟨S16000x64, .f32⟩
  | .hbm, ⟨16, _⟩ => ⟨S16000x64, .f32⟩
  | .hbm, ⟨17, _⟩ => ⟨S_, .i32⟩
  | .hbm, ⟨18, _⟩ => ⟨S512000, .i32⟩
  | .hbm, ⟨19, _⟩ => ⟨S512000, .i1⟩
  | .hbm, ⟨20, _⟩ => ⟨S_, .i32⟩
  | .hbm, ⟨21, _⟩ => ⟨S512000, .i32⟩
  | .hbm, ⟨22, _⟩ => ⟨S512000, .i32⟩
  | .hbm, ⟨23, _⟩ => ⟨S512000, .i32⟩
  | .hbm, ⟨24, _⟩ => ⟨S512000x1, .i32⟩
  | .hbm, ⟨25, _⟩ => ⟨S512000x128, .f32⟩
  | .hbm, ⟨26, _⟩ => ⟨S_, .f32⟩
  | .hbm, ⟨27, _⟩ => ⟨S16000x128, .f32⟩
  | .hbm, ⟨28, _⟩ => ⟨S512000x1, .i32⟩
  | .hbm, ⟨29, _⟩ => ⟨S16000x128, .f32⟩
  | .hbm, ⟨30, _⟩ => ⟨S128x128, .f32⟩
  | .hbm, ⟨31, _⟩ => ⟨S16000x128, .f32⟩
  | .hbm, ⟨32, _⟩ => ⟨S1x128, .f32⟩
  | .hbm, ⟨33, _⟩ => ⟨S16000x128, .f32⟩
  | .hbm, ⟨34, _⟩ => ⟨S16000x128, .f32⟩
  | .hbm, ⟨35, _⟩ => ⟨S_, .f32⟩
  | .hbm, ⟨36, _⟩ => ⟨S16000x128, .f32⟩
  | .hbm, ⟨37, _⟩ => ⟨S16000x128, .f32⟩
  | .hbm, ⟨38, _⟩ => ⟨S_, .i32⟩
  | .hbm, ⟨39, _⟩ => ⟨S512000, .i32⟩
  | .hbm, ⟨40, _⟩ => ⟨S512000, .i1⟩
  | .hbm, ⟨41, _⟩ => ⟨S_, .i32⟩
  | .hbm, ⟨42, _⟩ => ⟨S512000, .i32⟩
  | .hbm, ⟨43, _⟩ => ⟨S512000, .i32⟩
  | .hbm, ⟨44, _⟩ => ⟨S512000, .i32⟩
  | .hbm, ⟨45, _⟩ => ⟨S512000x1, .i32⟩
  | .hbm, ⟨46, _⟩ => ⟨S512000x128, .f32⟩
  | .hbm, ⟨47, _⟩ => ⟨S_, .f32⟩
  | .hbm, ⟨48, _⟩ => ⟨S16000x128, .f32⟩
  | .hbm, ⟨49, _⟩ => ⟨S512000x1, .i32⟩
  | .hbm, ⟨50, _⟩ => ⟨S16000x128, .f32⟩
  | .hbm, ⟨51, _⟩ => ⟨S128x64, .f32⟩
  | .hbm, ⟨52, _⟩ => ⟨S16000x64, .f32⟩
  | .hbm, ⟨53, _⟩ => ⟨S1x64, .f32⟩
  | .hbm, ⟨54, _⟩ => ⟨S16000x64, .f32⟩
  | .hbm, ⟨55, _⟩ => ⟨S16000x64, .f32⟩
  | .hbm, ⟨56, _⟩ => ⟨S16000x1, .f32⟩
  | .hbm, ⟨57, _⟩ => ⟨S_, .f32⟩
  | .hbm, ⟨58, _⟩ => ⟨S16000x1, .f32⟩
  | .hbm, ⟨59, _⟩ => ⟨S16000x1, .f32⟩
  | .hbm, ⟨60, _⟩ => ⟨S16000x64, .f32⟩
  | .hbm, ⟨61, _⟩ => ⟨S16000x64, .f32⟩
  | .hbm, ⟨62, _⟩ => ⟨S16000x64, .f32⟩
  | .hbm, ⟨63, _⟩ => ⟨S16000x64, .f32⟩
  | .hbm, ⟨64, _⟩ => ⟨S16000x64, .f32⟩
  | .hbm, ⟨65, _⟩ => ⟨S16000x192, .f32⟩
  | .hbm, ⟨66, _⟩ => ⟨S16000x192, .bf16⟩
  | .hbm, ⟨67, _⟩ => ⟨S16000x16000, .f32⟩
  | .hbm, ⟨68, _⟩ => ⟨S_, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S1x64, .f32⟩
  | .hbm, ⟨74, _⟩ => ⟨S16000x64, .f32⟩
  | .hbm, ⟨75, _⟩ => ⟨S16000x64, .f32⟩
  | .hbm, ⟨76, _⟩ => ⟨S16000x64, .f32⟩
  | .hbm, ⟨77, _⟩ => ⟨S_, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S1x64, .f32⟩
  | .hbm, ⟨83, _⟩ => ⟨S16000x64, .f32⟩
  | .hbm, ⟨84, _⟩ => ⟨S16000x64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64, .f32⟩
  | .hbm, ⟨89, _⟩ => ⟨S1x64, .f32⟩
  | .hbm, ⟨90, _⟩ => ⟨S16000x64, .f32⟩
  | .hbm, ⟨91, _⟩ => ⟨S16000x64, .f32⟩
  | .hbm, ⟨92, _⟩ => ⟨S1x64, .f32⟩
  | .hbm, ⟨93, _⟩ => ⟨S16000x64, .f32⟩
  | .hbm, ⟨94, _⟩ => ⟨S16000x64, .f32⟩
  | .hbm, ⟨95, _⟩ => ⟨S1x64, .f32⟩
  | .hbm, ⟨96, _⟩ => ⟨S16000x64, .f32⟩
  | .hbm, ⟨97, _⟩ => ⟨S16000x64, .f32⟩
  | .local _ .vmem, ⟨0, _⟩ => ⟨S1000x192, .bf16⟩
  | .local _ .vmem, ⟨1, _⟩ => ⟨S1000x192, .bf16⟩
  | .local _ .vmem, ⟨2, _⟩ => ⟨S3200x192, .bf16⟩
  | .local _ .vmem, ⟨3, _⟩ => ⟨S3200x192, .bf16⟩
  | .local _ .vmem, ⟨4, _⟩ => ⟨S1000x3200, .f32⟩
  | .local _ .vmem, ⟨5, _⟩ => ⟨S1000x3200, .f32⟩
  | _, _ => ⟨S16000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1000x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3200x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S64x128_S128x64_1_0 : S64x128.Transposes [1, 0] S128x64
  bcast_S64_S1x64_1 : S64.BroadcastsInDim S1x64 (![1] : Fin 1 → Fin S1x64.rank)
  bcast_S1x64_S16000x64_0_1 : S1x64.BroadcastsInDim S16000x64 (![0, 1] : Fin 2 → Fin S16000x64.rank)
  bcast_S_S512000 : S_.BroadcastsInDim S512000 (![] : Fin 0 → Fin S512000.rank)
  bcast_S512000_S512000x1_0 : S512000.BroadcastsInDim S512000x1 (![0] : Fin 1 → Fin S512000x1.rank)
  bcast_S_S16000x128 : S_.BroadcastsInDim S16000x128 (![] : Fin 0 → Fin S16000x128.rank)
  transposes_S128x128_S128x128_1_0 : S128x128.Transposes [1, 0] S128x128
  bcast_S128_S1x128_1 : S128.BroadcastsInDim S1x128 (![1] : Fin 1 → Fin S1x128.rank)
  bcast_S1x128_S16000x128_0_1 : S1x128.BroadcastsInDim S16000x128 (![0, 1] : Fin 2 → Fin S16000x128.rank)
  bcast_S16000_S16000x1_0 : S16000.BroadcastsInDim S16000x1 (![0] : Fin 1 → Fin S16000x1.rank)
  bcast_S_S16000x1 : S_.BroadcastsInDim S16000x1 (![] : Fin 0 → Fin S16000x1.rank)
  bcast_S16000x1_S16000x64_0_1 : S16000x1.BroadcastsInDim S16000x64 (![0, 1] : Fin 2 → Fin S16000x64.rank)
  concatenates_S16000x64_S16000x128_S16000x192_d1 : Shape.Concatenates [S16000x64, S16000x128] S16000x192 1
  bitsLt_bf16_f32 : FTy.bits .bf16 < FTy.bits .f32
  inb_S1000x192_S1000x192_0_0 : ∀ a, (![0, 0] : Fin 2 → Nat) a + S1000x192.size a ≤ S1000x192.size a
  h_S1000x192 : 0 < S1000x192.numel
  shapeCasts_S1000x192_S1000x192 : S1000x192.ShapeCasts S1000x192
  inb_S3200x192_S3200x192_0_0 : ∀ a, (![0, 0] : Fin 2 → Nat) a + S3200x192.size a ≤ S3200x192.size a
  h_S3200x192 : 0 < S3200x192.numel
  shapeCasts_S3200x192_S3200x192 : S3200x192.ShapeCasts S3200x192
  inb_S1000x3200_S1000x3200_0_0 : ∀ a, (![0, 0] : Fin 2 → Nat) a + S1000x3200.size a ≤ S1000x3200.size a
  h_S1000x3200 : 0 < S1000x3200.numel
  reducesTo_S16000x64_S64_d0 : S16000x64.ReducesTo [0] S64
  h_S_ : 0 < S_.numel
  bcast_S_S64 : S_.BroadcastsInDim S64 (![] : Fin 0 → Fin S64.rank)
  dot_S16000x128_S128x64_S16000x64_1_0_0_1_n_n_wf : DotDims.WF S16000x128 S128x64 S16000x64 [1] [0] [0] [1] [] []
  gather_S16000x128_S512000x1_S512000x128_1_0_n_n_0_1_1128_wf : GatherDims.WF S16000x128 S512000x1 S512000x128 [1] [0] [] [0] [] 1 ![1, 128]
  scatter_S16000x128_S512000x1_S512000x128_1_0_0_1_wf : ScatterDims.WF S16000x128 S512000x1 S512000x128 [1] [0] [0] 1
  dot_S16000x128_S128x128_S16000x128_1_0_0_1_n_n_wf : DotDims.WF S16000x128 S128x128 S16000x128 [1] [0] [0] [1] [] []
  dot_S1000x192_S3200x192_S1000x3200_1_1_0_0_n_n_wf : DotDims.WF S1000x192 S3200x192 S1000x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x192.size a ≤ S16000x192.size a
  hwx0_0 : ∀ i : grid0.Coords, EltTy.bits .bf16 = 32 ∨ (Rect.block (s := S16000x192) S1000x192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x192.size a ≤ S16000x192.size a
  hwx0_1 : ∀ i : grid0.Coords, EltTy.bits .bf16 = 32 ∨ (Rect.block (s := S16000x192) S3200x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x3200.size a ≤ S16000x16000.size a
  hwx0_2 : ∀ i : grid0.Coords, EltTy.bits .f32 = 32 ∨ (Rect.block (s := S16000x16000) S1000x3200.size (cc0_transform_2 i) (hinb0_2 i)).WholeWords (EltTy.packing .f32)

variable [Facts₀]

def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def gather_S16000x128_S512000x1_S512000x128_1_0_n_n_0_1_1128 : GatherDims S16000x128 S512000x1 S512000x128 where
  offsetDims := [1]
  collapsedSliceDims := [0]
  operandBatchingDims := []
  startIndicesBatchingDims := []
  startIndexMap := [0]
  indexVectorDim := 1
  sliceSizes := ![1, 128]
  wf := gather_S16000x128_S512000x1_S512000x128_1_0_n_n_0_1_1128_wf
def scatter_S16000x128_S512000x1_S512000x128_1_0_0_1 : ScatterDims S16000x128 S512000x1 S512000x128 where
  updateWindowDims := [1]
  insertedWindowDims := [0]
  scatterDimsToOperandDims := [0]
  indexVectorDim := 1
  wf := scatter_S16000x128_S512000x1_S512000x128_1_0_0_1_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S1000x192_S3200x192_S1000x3200_1_1_0_0_n_n : DotDims S1000x192 S3200x192 S1000x3200 where
  lhsContracting := [1]
  rhsContracting := [1]
  lhsNonContracting := [0]
  rhsNonContracting := [0]
  lhsBatch := []
  rhsBatch := []
  wf := dot_S1000x192_S3200x192_S1000x3200_1_1_0_0_n_n_wf

abbrev win0_0 : Pipeline.Window sig grid0 :=
  Pipeline.Window.ofSpec (Memref.whole main_v45) S1000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S3200x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1000x3200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16000x128 : Shape := ⟨2, ![16000, 128]⟩
abbrev S512000 : Shape := ⟨1, ![512000]⟩
abbrev S64x128 : Shape := ⟨2, ![64, 128]⟩
abbrev S64 : Shape := ⟨1, ![64]⟩
abbrev S128x128 : Shape := ⟨2, ![128, 128]⟩
abbrev S128 : Shape := ⟨1, ![128]⟩
abbrev S16000 : Shape := ⟨1, ![16000]⟩
abbrev S128x64 : Shape := ⟨2, ![128, 64]⟩
abbrev S16000x64 : Shape := ⟨2, ![16000, 64]⟩
abbrev S1x64 : Shape := ⟨2, ![1, 64]⟩
abbrev S_ : Shape := ⟨0, ![]⟩
abbrev S512000x1 : Shape := ⟨2, ![512000, 1]⟩
abbrev S512000x128 : Shape := ⟨2, ![512000, 128]⟩
abbrev S1x128 : Shape := ⟨2, ![1, 128]⟩
abbrev S16000x1 : Shape := ⟨2, ![16000, 1]⟩
abbrev S64x16000 : Shape := ⟨2, ![64, 16000]⟩
abbrev S16000x16000 : Shape := ⟨2, ![16000, 16000]⟩
abbrev S128x16000 : Shape := ⟨2, ![128, 16000]⟩

abbrev nBuf : Space → Nat
  | .hbm => 103
  | .vmem => 0
  | .smem => 0
  | _ => 0

abbrev bufTy : (tb : Table) → Fin (tcTables nBuf tb) → BufTy
  | .hbm, ⟨0, _⟩ => ⟨S16000x128, .f32⟩
  | .hbm, ⟨1, _⟩ => ⟨S512000, .i32⟩
  | .hbm, ⟨2, _⟩ => ⟨S512000, .i32⟩
  | .hbm, ⟨3, _⟩ => ⟨S64x128, .f32⟩
  | .hbm, ⟨4, _⟩ => ⟨S64, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S16000, .f32⟩
  | .hbm, ⟨10, _⟩ => ⟨S64, .f32⟩
  | .hbm, ⟨11, _⟩ => ⟨S64, .f32⟩
  | .hbm, ⟨12, _⟩ => ⟨S128x64, .f32⟩
  | .hbm, ⟨13, _⟩ => ⟨S16000x64, .f32⟩
  | .hbm, ⟨14, _⟩ => ⟨S1x64, .f32⟩
  | .hbm, ⟨15, _⟩ => ⟨S16000x64, .f32⟩
  | .hbm, ⟨16, _⟩ => ⟨S16000x64, .f32⟩
  | .hbm, ⟨17, _⟩ => ⟨S_, .i32⟩
  | .hbm, ⟨18, _⟩ => ⟨S512000, .i32⟩
  | .hbm, ⟨19, _⟩ => ⟨S512000, .i1⟩
  | .hbm, ⟨20, _⟩ => ⟨S_, .i32⟩
  | .hbm, ⟨21, _⟩ => ⟨S512000, .i32⟩
  | .hbm, ⟨22, _⟩ => ⟨S512000, .i32⟩
  | .hbm, ⟨23, _⟩ => ⟨S512000, .i32⟩
  | .hbm, ⟨24, _⟩ => ⟨S512000x1, .i32⟩
  | .hbm, ⟨25, _⟩ => ⟨S512000x128, .f32⟩
  | .hbm, ⟨26, _⟩ => ⟨S_, .f32⟩
  | .hbm, ⟨27, _⟩ => ⟨S16000x128, .f32⟩
  | .hbm, ⟨28, _⟩ => ⟨S512000x1, .i32⟩
  | .hbm, ⟨29, _⟩ => ⟨S16000x128, .f32⟩
  | .hbm, ⟨30, _⟩ => ⟨S128x128, .f32⟩
  | .hbm, ⟨31, _⟩ => ⟨S16000x128, .f32⟩
  | .hbm, ⟨32, _⟩ => ⟨S1x128, .f32⟩
  | .hbm, ⟨33, _⟩ => ⟨S16000x128, .f32⟩
  | .hbm, ⟨34, _⟩ => ⟨S16000x128, .f32⟩
  | .hbm, ⟨35, _⟩ => ⟨S_, .f32⟩
  | .hbm, ⟨36, _⟩ => ⟨S16000x128, .f32⟩
  | .hbm, ⟨37, _⟩ => ⟨S16000x128, .f32⟩
  | .hbm, ⟨38, _⟩ => ⟨S_, .i32⟩
  | .hbm, ⟨39, _⟩ => ⟨S512000, .i32⟩
  | .hbm, ⟨40, _⟩ => ⟨S512000, .i1⟩
  | .hbm, ⟨41, _⟩ => ⟨S_, .i32⟩
  | .hbm, ⟨42, _⟩ => ⟨S512000, .i32⟩
  | .hbm, ⟨43, _⟩ => ⟨S512000, .i32⟩
  | .hbm, ⟨44, _⟩ => ⟨S512000, .i32⟩
  | .hbm, ⟨45, _⟩ => ⟨S512000x1, .i32⟩
  | .hbm, ⟨46, _⟩ => ⟨S512000x128, .f32⟩
  | .hbm, ⟨47, _⟩ => ⟨S_, .f32⟩
  | .hbm, ⟨48, _⟩ => ⟨S16000x128, .f32⟩
  | .hbm, ⟨49, _⟩ => ⟨S512000x1, .i32⟩
  | .hbm, ⟨50, _⟩ => ⟨S16000x128, .f32⟩
  | .hbm, ⟨51, _⟩ => ⟨S128x64, .f32⟩
  | .hbm, ⟨52, _⟩ => ⟨S16000x64, .f32⟩
  | .hbm, ⟨53, _⟩ => ⟨S1x64, .f32⟩
  | .hbm, ⟨54, _⟩ => ⟨S16000x64, .f32⟩
  | .hbm, ⟨55, _⟩ => ⟨S16000x64, .f32⟩
  | .hbm, ⟨56, _⟩ => ⟨S16000x1, .f32⟩
  | .hbm, ⟨57, _⟩ => ⟨S_, .f32⟩
  | .hbm, ⟨58, _⟩ => ⟨S16000x1, .f32⟩
  | .hbm, ⟨59, _⟩ => ⟨S16000x1, .f32⟩
  | .hbm, ⟨60, _⟩ => ⟨S16000x64, .f32⟩
  | .hbm, ⟨61, _⟩ => ⟨S16000x64, .f32⟩
  | .hbm, ⟨62, _⟩ => ⟨S16000x64, .f32⟩
  | .hbm, ⟨63, _⟩ => ⟨S16000x64, .f32⟩
  | .hbm, ⟨64, _⟩ => ⟨S16000x64, .f32⟩
  | .hbm, ⟨65, _⟩ => ⟨S64x16000, .f32⟩
  | .hbm, ⟨66, _⟩ => ⟨S16000x16000, .f32⟩
  | .hbm, ⟨67, _⟩ => ⟨S128x16000, .f32⟩
  | .hbm, ⟨68, _⟩ => ⟨S16000x16000, .f32⟩
  | .hbm, ⟨69, _⟩ => ⟨S16000x16000, .f32⟩
  | .hbm, ⟨70, _⟩ => ⟨S_, .f32⟩
  | .hbm, ⟨71, _⟩ => ⟨S16000x16000, .f32⟩
  | .hbm, ⟨72, _⟩ => ⟨S16000x16000, .f32⟩
  | .hbm, ⟨73, _⟩ => ⟨S_, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S1x64, .f32⟩
  | .hbm, ⟨79, _⟩ => ⟨S16000x64, .f32⟩
  | .hbm, ⟨80, _⟩ => ⟨S16000x64, .f32⟩
  | .hbm, ⟨81, _⟩ => ⟨S16000x64, .f32⟩
  | .hbm, ⟨82, _⟩ => ⟨S_, .f32⟩
  | .hbm, ⟨83, _⟩ => ⟨S64, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S1x64, .f32⟩
  | .hbm, ⟨88, _⟩ => ⟨S16000x64, .f32⟩
  | .hbm, ⟨89, _⟩ => ⟨S16000x64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64, .f32⟩
  | .hbm, ⟨94, _⟩ => ⟨S1x64, .f32⟩
  | .hbm, ⟨95, _⟩ => ⟨S16000x64, .f32⟩
  | .hbm, ⟨96, _⟩ => ⟨S16000x64, .f32⟩
  | .hbm, ⟨97, _⟩ => ⟨S1x64, .f32⟩
  | .hbm, ⟨98, _⟩ => ⟨S16000x64, .f32⟩
  | .hbm, ⟨99, _⟩ => ⟨S16000x64, .f32⟩
  | .hbm, ⟨100, _⟩ => ⟨S1x64, .f32⟩
  | .hbm, ⟨101, _⟩ => ⟨S16000x64, .f32⟩
  | .hbm, ⟨102, _⟩ => ⟨S16000x64, .f32⟩
  | _, _ => ⟨S16000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S16000x64_0_1 : S1x64.BroadcastsInDim S16000x64 (![0, 1] : Fin 2 → Fin S16000x64.rank)
  bcast_S_S512000 : S_.BroadcastsInDim S512000 (![] : Fin 0 → Fin S512000.rank)
  bcast_S512000_S512000x1_0 : S512000.BroadcastsInDim S512000x1 (![0] : Fin 1 → Fin S512000x1.rank)
  bcast_S_S16000x128 : S_.BroadcastsInDim S16000x128 (![] : Fin 0 → Fin S16000x128.rank)
  transposes_S128x128_S128x128_1_0 : S128x128.Transposes [1, 0] S128x128
  bcast_S128_S1x128_1 : S128.BroadcastsInDim S1x128 (![1] : Fin 1 → Fin S1x128.rank)
  bcast_S1x128_S16000x128_0_1 : S1x128.BroadcastsInDim S16000x128 (![0, 1] : Fin 2 → Fin S16000x128.rank)
  bcast_S16000_S16000x1_0 : S16000.BroadcastsInDim S16000x1 (![0] : Fin 1 → Fin S16000x1.rank)
  bcast_S_S16000x1 : S_.BroadcastsInDim S16000x1 (![] : Fin 0 → Fin S16000x1.rank)
  bcast_S16000x1_S16000x64_0_1 : S16000x1.BroadcastsInDim S16000x64 (![0, 1] : Fin 2 → Fin S16000x64.rank)
  transposes_S16000x64_S64x16000_1_0 : S16000x64.Transposes [1, 0] S64x16000
  transposes_S16000x128_S128x16000_1_0 : S16000x128.Transposes [1, 0] S128x16000
  bcast_S_S16000x16000 : S_.BroadcastsInDim S16000x16000 (![] : Fin 0 → Fin S16000x16000.rank)
  reducesTo_S16000x64_S64_d0 : S16000x64.ReducesTo [0] S64
  h_S_ : 0 < S_.numel
  bcast_S_S64 : S_.BroadcastsInDim S64 (![] : Fin 0 → Fin S64.rank)
  dot_S16000x128_S128x64_S16000x64_1_0_0_1_n_n_wf : DotDims.WF S16000x128 S128x64 S16000x64 [1] [0] [0] [1] [] []
  gather_S16000x128_S512000x1_S512000x128_1_0_n_n_0_1_1128_wf : GatherDims.WF S16000x128 S512000x1 S512000x128 [1] [0] [] [0] [] 1 ![1, 128]
  scatter_S16000x128_S512000x1_S512000x128_1_0_0_1_wf : ScatterDims.WF S16000x128 S512000x1 S512000x128 [1] [0] [0] 1
  dot_S16000x128_S128x128_S16000x128_1_0_0_1_n_n_wf : DotDims.WF S16000x128 S128x128 S16000x128 [1] [0] [0] [1] [] []
  dot_S16000x64_S64x16000_S16000x16000_1_0_0_1_n_n_wf : DotDims.WF S16000x64 S64x16000 S16000x16000 [1] [0] [0] [1] [] []
  dot_S16000x128_S128x16000_S16000x16000_1_0_0_1_n_n_wf : DotDims.WF S16000x128 S128x16000 S16000x16000 [1] [0] [0] [1] [] []

variable [Facts₀]

def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def gather_S16000x128_S512000x1_S512000x128_1_0_n_n_0_1_1128 : GatherDims S16000x128 S512000x1 S512000x128 where
  offsetDims := [1]
  collapsedSliceDims := [0]
  operandBatchingDims := []
  startIndicesBatchingDims := []
  startIndexMap := [0]
  indexVectorDim := 1
  sliceSizes := ![1, 128]
  wf := gather_S16000x128_S512000x1_S512000x128_1_0_n_n_0_1_1128_wf
def scatter_S16000x128_S512000x1_S512000x128_1_0_0_1 : ScatterDims S16000x128 S512000x1 S512000x128 where
  updateWindowDims := [1]
  insertedWindowDims := [0]
  scatterDimsToOperandDims := [0]
  indexVectorDim := 1
  wf := scatter_S16000x128_S512000x1_S512000x128_1_0_0_1_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S16000x64_S64x16000_S16000x16000_1_0_0_1_n_n : DotDims S16000x64 S64x16000 S16000x16000 where
  lhsContracting := [1]
  rhsContracting := [0]
  lhsNonContracting := [0]
  rhsNonContracting := [1]
  lhsBatch := []
  rhsBatch := []
  wf := dot_S16000x64_S64x16000_S16000x16000_1_0_0_1_n_n_wf
def dot_S16000x128_S128x16000_S16000x16000_1_0_0_1_n_n : DotDims S16000x128 S128x16000 S16000x16000 where
  lhsContracting := [1]
  rhsContracting := [0]
  lhsNonContracting := [0]
  rhsNonContracting := [1]
  lhsBatch := []
  rhsBatch := []
  wf := dot_S16000x128_S128x16000_S16000x16000_1_0_0_1_n_n_wf

class Facts : Prop extends Facts₀ where

variable [Facts]
-- ==== Proof.RegionKernel.lean ====
/-
  The Gram kernel's region, seen from any contents `V` of the core's buffers at the moment the region is entered.

  The grid has 16 × 5 points. At point (i, j) the body reads block i of 1000 rows of the 16000 × 192 matrix A
  through window 0 and block j of 3200 rows of the SAME matrix through window 1, multiplies the first by the
  transpose of the second, halves the product, and stores the 1000 × 3200 result whole into window 2's buffer,
  which is written back as block (i, j) of the 16000 × 16000 output. Both input windows leave their blocks as
  they found them, so every input staging buffer holds its block of A at every point, fetched there or not.

  What is proved here, for any float instance: the body's triple on whole staging buffers, the proof data of
  the pipeline (what each window's buffer holds after the body at each point), and the body obligation at
  every point. The two windows that read A hold it at complementary half shares.
-/
import proofs.«167292_j14035953123515_1_alg».proof.Proof.Gen.Kernel.Launch
import proofs.«167292_j14035953123515_1_alg».proof.Proof.Gen.Kernel.Skeleton
import proofs.«167292_j14035953123515_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block `t` of window `w`, cut out of the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (rows of A by the grid's first coordinate) is refetched only when that coordinate moves; between
    fetches the body leaves the block in place, so the current buffer holds block `t` at every point. -/
theorem rows_stay {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Window 1 (rows of A by the grid's second coordinate), likewise. -/
theorem cols_stay {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer whole -/

abbrev rectRows : Rect S1000x192 := Rect.unit (s := S1000x192) ![0, 0] S1000x192.size inb_S1000x192_S1000x192_0_0
abbrev rectCols : Rect S3200x192 := Rect.unit (s := S3200x192) ![0, 0] S3200x192.size inb_S3200x192_S3200x192_0_0
abbrev rectOut : Rect S1000x3200 := Rect.unit (s := S1000x3200) ![0, 0] S1000x3200.size inb_S1000x3200_S1000x3200_0_0

/-- The output buffer after the body: its one store, the halved product of the two blocks read. -/
def halfGram (x0 : Vec F S1000x192 .bf16) (x1 : Vec F S3200x192 .bf16) : Vec F S1000x3200 .f32 :=
  View.canon [⟨rectOut, k0_pay1 (View.ld x0 rectRows) (View.ld x1 rectCols)⟩]

/-- The one store covers the whole buffer. -/
theorem store_covers (p0 : Vec F S1000x3200 .f32) (y : S1000x3200.Idx) :
    ∃ pc ∈ ([⟨rectOut, p0⟩] : List (View.Piece (Elt F) S1000x3200 .f32)), y ∈ pc.1.set :=
  View.cover_of_tiled [⟨rectOut, p0⟩] S1000x3200.size (by rfl) y

/-! ## The body's triple -/

set_option maxHeartbeats 1000000 in
/-- On whole staging buffers, the inputs at contents `x0`, `x1` and the output at anything, the body runs to the
    continuation with the inputs as they were and the output at `halfGram x0 x1`. -/
theorem body_triple (c : Dev nD) (E : Set ℕ) (i : grid0.Coords) (arg0 : Memref sig .tc .vmem S1000x192 .bf16) (harg0 : arg0.IsWhole)
    (arg1 : Memref sig .tc .vmem S3200x192 .bf16) (harg1 : arg1.IsWhole) (arg2 : Memref sig .tc .vmem S1000x3200 .f32) (harg2 : arg2.IsWhole)
    (x0 : Vec F S1000x192 .bf16) (x1 : Vec F S3200x192 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (halfGram x0 x1)) -∗ K ⟨⟩))
      ⊢ wp frame (wpE (defs₀ (F := F)) Variants.none c none) E (cc0__sym_gram_kernel i arg0 harg0 arg1 harg1 arg2 harg2) K := by
  simp only [cc0__sym_gram_kernel_eq_skeleton]; unfold cc0__sym_gram_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- On core `c`: the arrays as the region finds them; after the body at point `t` each input buffer at its block
    and the output buffer at the halved product of the two blocks; the invariant is the scoped rest and the
    generator register, untouched; nothing owed; the two readers of A at complementary halves of its share. -/
def gramDat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => halfGram (blockAt V c 0 t) (blockAt V c 1 t)
  Φ _ := Pipeline.ΦA spec0 c
  q w := match w with
    | ⟨0, _⟩ => fullShare.left
    | ⟨1, _⟩ => fullShare.right
    | ⟨2, _⟩ => fullShare
  owed _ := 0

theorem gramDat_A (c : Dev nD) (w : Fin cfg0.W) : (gramDat V c).A w = V c (Pipeline.arrRef spec0 w) := by
  dsimp only [gramDat]

theorem after_rows (c : Dev nD) (t : Fin cfg0.N) : (gramDat V c).after 0 t = blockAt V c 0 t := by dsimp only [gramDat]
theorem after_cols (c : Dev nD) (t : Fin cfg0.N) : (gramDat V c).after 1 t = blockAt V c 1 t := by dsimp only [gramDat]
theorem after_out (c : Dev nD) (t : Fin cfg0.N) : (gramDat V c).after 2 t = halfGram (blockAt V c 0 t) (blockAt V c 1 t) := by dsimp only [gramDat]

theorem before_rows (c : Dev nD) (t : Fin cfg0.N) (d) : (gramDat V c).before 0 t d = blockAt V c 0 t :=
  rows_stay V (gramDat V c) (gramDat_A V c 0) (after_rows V c) t d
theorem before_cols (c : Dev nD) (t : Fin cfg0.N) (d) : (gramDat V c).before 1 t d = blockAt V c 1 t :=
  cols_stay V (gramDat V c) (gramDat_A V c 1) (after_cols V c) t d

/-! ## The body obligation at a generic point -/

/-- What the body is called with at point `t`, -/
def pointPre (c : Dev nD) (t : Fin cfg0.N) : sProp 𝕄 :=
  iprop((gramDat V c).Φ t.castSucc ∗ (gramDat V c).owesAt () t.castSucc
    ∗ (∃ d, owns (c : Thread nD τ) (st0_0 t) fullShare ((gramDat V c).before 0 t d))
    ∗ (∃ d, owns (c : Thread nD τ) (st0_1 t) fullShare ((gramDat V c).before 1 t d))
    ∗ (∃ d, owns (c : Thread nD τ) (st0_2 t) fullShare ((gramDat V c).before 2 t d)))

/-- and what it returns. -/
def pointPost (c : Dev nD) (t : Fin cfg0.N) : sProp 𝕄 :=
  iprop((gramDat V c).Φ t.succ ∗ (gramDat V c).owesAt () t.succ
    ∗ owns (c : Thread nD τ) (st0_0 t) fullShare ((gramDat V c).after 0 t)
    ∗ owns (c : Thread nD τ) (st0_1 t) fullShare ((gramDat V c).after 1 t)
    ∗ owns (c : Thread nD τ) (st0_2 t) fullShare ((gramDat V c).after 2 t))

theorem body_at (c : Dev nD) (t : Fin cfg0.N) :
    pointPre V c t ⊢ wp frame (wpE (defs₀ (F := F)) Variants.none c none) Set.univ (bodyAt0 t) (fun _ => pointPost V c t) := by
  unfold pointPre pointPost bodyAt0
  simp only [before_rows, before_cols]
  rw [show (gramDat V c).Φ t.succ = (gramDat V c).Φ t.castSucc from rfl,
    show (gramDat V c).owesAt () t.succ = (gramDat V c).owesAt () t.castSucc from rfl,
    after_rows, after_cols, after_out]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (gramDat (F := F) V c) (defs₀ (F := F)) Variants.none () Set.univ := fun t => by
  rw [bigSep_W0, bigSep_W0]
  exact body_at V c t

end Cert.Kernel.Gram

end
-- ==== Proof.RunKernel.lean ====
/-
  The whole run of @main around the Gram region, for any float instance.

  @main is three stretches of host operations (they build h, put A = [h | x] together and narrow it to bf16),
  the one region, and a last stretch (the batch normalisation of h). The contents of every unscoped buffer are
  followed from boundary to boundary: at launch, after each host stretch, and across the region, which changes
  one buffer only — the 16000 × 16000 output, left at what the pipeline's write-backs make of it.

  The region's two reading windows are handed the SAME array A. At the region's entry the full share of A is cut
  into its left and right halves, one per window; at the exit the halves, still at A's contents, are put back
  together. Everything else is routed as for a kernel whose windows read distinct arrays.

  The result is one run theorem whose post names the final contents of every unscoped buffer; the frame claim
  and the two results are read off it.
-/
import proofs.«167292_j14035953123515_1_alg».proof.Proof.RegionKernel

set_option maxRecDepth 16384

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first stretch (up to the pre-activation of the first layer), -/
abbrev Wa : Dev nD → Valuation τ sig (Elt F) := fun c => StableHlo.after hostOps0 (W0 m ρ c)
/-- after the rectifier, -/
abbrev Wb : Dev nD → Valuation τ sig (Elt F) := fun c => StableHlo.after hostOps0_1 (Wa m ρ c)
/-- and at the region's entry: h, A = [h | x] and its bf16 copy are there. -/
abbrev W1 : Dev nD → Valuation τ sig (Elt F) := fun c => StableHlo.after hostOps0_2 (Wb m ρ c)
abbrev V1 : (c : Dev nD) → (b : Ref sig .tc) → Buf (Elt F) ((c : Thread nD τ).loc b) := fun c b => W1 m ρ c b

/-- At the region's exit: the output array at what the write-backs leave, every other buffer as entered. -/
def W2 (c : Dev nD) : Valuation τ sig (Elt F) := fun b =>
  if h : Proc.devRef .tc main_v46 = b then
    cast (congrArg (fun b' : DevRef τ sig => b'.ty.Contents (Elt F)) h) ((gramDat (V1 m ρ) c).arrAt 2 cfg0.N)
  else W1 m ρ c b

theorem W2_out (c : Dev nD) : W2 m ρ c (Proc.devRef .tc main_v46) = (gramDat (V1 m ρ) c).arrAt 2 cfg0.N := by
  unfold W2; rw [dif_pos rfl]; rfl

theorem W2_of_ne (c : Dev nD) (b : Ref sig .tc) (hb : main_v46 ≠ b) :
    W2 m ρ c (Proc.devRef .tc b) = W1 m ρ c (Proc.devRef .tc b) := by
  unfold W2; rw [dif_neg]; intro e; exact hb (Proc.devRef_injective _ e)

abbrev V2 : (c : Dev nD) → (b : Ref sig .tc) → Buf (Elt F) ((c : Thread nD τ).loc b) := fun c b => W2 m ρ c b

/-- After the last stretch: the final contents. -/
abbrev W3 : Dev nD → Valuation τ sig (Elt F) := fun c => StableHlo.after hostOps1 (W2 m ρ c)

/-! ## The proof data family and what rides beside the buffers -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => gramDat (V1 m ρ) c
abbrev 𝒱₀ : Variants := Variants.none
/-- No core owes another anything. -/
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W3 m ρ c) ∗ ∃ r, prngReg c r)

/-! ## One array, two readers: cutting A's share at the entry and joining it at the exit -/

/-- The distinct buffers behind the three windows: A's bf16 copy and the output. -/
theorem arr_bufs : (Finset.univ.image (Pipeline.arrRef spec0) : Finset (Ref sig .tc)) = [main_v45, main_v46].toFinset := by decide

/-- The two buffers conjoined one by one. -/
theorem bigSep_bufs {M : Type} [URA M] (Φ : Ref sig .tc → sProp M) :
    bigSep (Finset.univ.image (Pipeline.arrRef spec0)) Φ = iprop(Φ main_v45 ∗ Φ main_v46) :=
  bigSep_eq_bigSepL_of_eq [main_v45, main_v46] arr_bufs (by decide) Φ

/-- The three windows' shares of their arrays. -/
theorem share_rows (V : (c : Dev nD) → (b : Ref sig .tc) → Buf (Elt F) ((c : Thread nD τ).loc b)) (c : Dev nD) :
    (gramDat V c).share 0 = fullShare.left := rfl
theorem share_cols (V : (c : Dev nD) → (b : Ref sig .tc) → Buf (Elt F) ((c : Thread nD τ).loc b)) (c : Dev nD) :
    (gramDat V c).share 1 = fullShare.right := rfl
theorem share_out (V : (c : Dev nD) → (b : Ref sig .tc) → Buf (Elt F) ((c : Thread nD τ).loc b)) (c : Dev nD) :
    (gramDat V c).share 2 = fullShare := rfl

/-- CUT: the two buffers whole, at a valuation's contents, give the three windows their arrays at their shares —
    A's full share is its left half beside its right half. -/
theorem bufs_to_arrays (V : (c : Dev nD) → (b : Ref sig .tc) → Buf (Elt F) ((c : Thread nD τ).loc b)) (c : Dev nD)
    (V' : (b : Ref sig .tc) → Buf (Elt F) ((c : Thread nD τ).loc b))
    (Fw : (w : Fin cfg0.W) → Buf (Elt F) ((cfg0.win w).arr.view.loc (c : Thread nD τ)))
    (h0 : Fw 0 = V' main_v45) (h1 : Fw 1 = V' main_v45) (h2 : Fw 2 = V' main_v46) :
    (Pipeline.arrBufs spec0 c V' : sProp 𝕄) ⊢ (gramDat V c).arrays Fw := by
  unfold Pipeline.Dat.arrays Pipeline.arrBufs
  rw [bigSep_W0, bigSep_bufs]
  rw [(arr_whole0 0).set_eq_univ, (arr_whole0 2).set_eq_univ,
    share_rows, share_cols, share_out, h0, h1, h2]
  iintro ⟨HA, HO⟩
  ihave Hs := (pointsTo_share (PosShare.mem_left_op_right fullShare)).mp $$ HA
  icases Hs with ⟨Hl, Hr⟩
  isplitl [Hl]; · iexact Hl
  isplitl [Hr]; · iexact Hr
  iexact HO

/-- JOIN: the converse — the two halves of A's share, at the same contents, are its full share again. -/
theorem arrays_to_bufs (V : (c : Dev nD) → (b : Ref sig .tc) → Buf (Elt F) ((c : Thread nD τ).loc b)) (c : Dev nD)
    (V' : (b : Ref sig .tc) → Buf (Elt F) ((c : Thread nD τ).loc b))
    (Fw : (w : Fin cfg0.W) → Buf (Elt F) ((cfg0.win w).arr.view.loc (c : Thread nD τ)))
    (h0 : Fw 0 = V' main_v45) (h1 : Fw 1 = V' main_v45) (h2 : Fw 2 = V' main_v46) :
    ((gramDat V c).arrays Fw : sProp 𝕄) ⊢ Pipeline.arrBufs spec0 c V' := by
  unfold Pipeline.Dat.arrays Pipeline.arrBufs
  rw [bigSep_W0, bigSep_bufs]
  rw [(arr_whole0 0).set_eq_univ, (arr_whole0 2).set_eq_univ,
    share_rows, share_cols, share_out, h0, h1, h2]
  iintro ⟨Hl, Hr, HO⟩
  isplitl [Hl Hr]
  · iapply (pointsTo_share (PosShare.mem_left_op_right fullShare)).mpr
    isplitl [Hl] <;> iassumption
  iexact HO

/-! ## Entry and exit of the region over every unscoped buffer -/

/-- ENTRY: the unscoped buffers at the entry contents are the windows' arrays — A at its two half shares, the
    output whole — and the rest. -/
theorem entry_split (c : Dev nD) :
    (unscopedBufs (Ix := Unit) (Name := ℕ) (U := UR sig nD τ) (Lvl := ℕ) c (V1 m ρ c) : sProp 𝕄)
      ⊢ iprop((pdats m ρ 0 c).arrays ((pdats m ρ 0 c).arrAt · 0) ∗ Pipeline.unscopedRest spec0 c (V1 m ρ c)) := by
  show _ ⊢ iprop((gramDat (V1 m ρ) c).arrays ((gramDat (V1 m ρ) c).arrAt · 0) ∗ Pipeline.unscopedRest spec0 c (V1 m ρ c))
  rw [Pipeline.unscopedBufs_split₀ cfgs 0 winFacts₀0.arr_unscoped c (V1 m ρ c)]
  exact sep_mono (bufs_to_arrays (V1 m ρ) c (V1 m ρ c) _ (gramDat_A (V1 m ρ) c 0) (gramDat_A (V1 m ρ) c 1) (gramDat_A (V1 m ρ) c 2)) .rfl

/-- EXIT: the arrays as the pipeline leaves them — A unchanged at both readers, the output at its write-backs —
    and the rest are the unscoped buffers at the exit contents. -/
theorem exit_join (c : Dev nD) :
    iprop((pdats m ρ 0 c).arrays ((pdats m ρ 0 c).arrAt · cfg0.N) ∗ Pipeline.unscopedRest spec0 c (V1 m ρ c))
      ⊢ (unscopedBufs (Ix := Unit) (Name := ℕ) (U := UR sig nD τ) (Lvl := ℕ) c (V2 m ρ c) : sProp 𝕄) := by
  show iprop((gramDat (V1 m ρ) c).arrays ((gramDat (V1 m ρ) c).arrAt · cfg0.N) ∗ Pipeline.unscopedRest spec0 c (V1 m ρ c)) ⊢ _
  rw [Pipeline.unscopedBufs_split₀ cfgs 0 winFacts₀0.arr_unscoped c (V2 m ρ c)]
  refine sep_mono (arrays_to_bufs (V1 m ρ) c (V2 m ρ c) _
    ((((gramDat (V1 m ρ) c).arrAt_in 0 rfl _).trans (gramDat_A (V1 m ρ) c 0)).trans (W2_of_ne m ρ c main_v45 (by decide)).symm)
    ((((gramDat (V1 m ρ) c).arrAt_in 1 rfl _).trans (gramDat_A (V1 m ρ) c 1)).trans (W2_of_ne m ρ c main_v45 (by decide)).symm)
    (W2_out m ρ c).symm) (Entails.of_eq ?_)
  unfold Pipeline.unscopedRest
  exact bigSep_congr fun b hb => by
    rw [show V2 m ρ c b = V1 m ρ c b from W2_of_ne m ρ c b fun e =>
      (Finset.mem_sdiff.mp hb).2 (Finset.mem_image.mpr ⟨2, Finset.mem_univ _, e⟩)]

/-! ## The region as a segment -/

set_option backward.isDefEq.respectTransparency.types false in
/-- The region over the thread state: entered from every unscoped buffer at `W1`, left at `W2`. The generator
    register goes into the pipeline's invariant and comes back; nothing is owed; the kernel has no semaphore of
    its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments: three host stretches, the region, the last host stretch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main on the TensorCores
    terminates, nothing faulting, and every unscoped buffer ends at the contents the fold through @main names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Gram

end
-- ==== Proof.KeptKernel.lean ====
/-
  The frame, read off the run: the argument arrays end as they were launched.

  The run names the final contents of every unscoped buffer as a fold through @main: the last host stretch applied
  to the region's exit contents, those being the entry contents but for the output array, those the three earlier
  stretches applied to the launch memory. No host operation writes an argument array (each writes its own fresh
  result buffer), and the region writes only its output; so walking the fold back at an argument's buffer reaches
  the launch memory.
-/
import proofs.«167292_j14035953123515_1_alg».proof.Proof.RunKernel

set_option maxRecDepth 16384

noncomputable section

namespace Cert.Kernel.Gram

open Idealize.ShloMosaic Idealize.ShloMosaic.TcCoe Idealize.ShloMosaic.Tactic
open Idealize.SL Idealize.SL.Sem
open Cert.Kernel Cert.Kernel.Gen

variable {F : FTy → Type} [FloatOps F]
variable (m : (ℓ : Loc nD τ sig) → Buf (Elt F) ℓ) (ρ : Dev nD → PrngReg)

/-- No operation of a host stretch writes the reference in the goal: each operation writes one buffer, and that
    buffer is another reference. -/
macro "no_host_write" : tactic => `(tactic| (
  refine List.forall_iff_forall_mem.mp ?_
  simp only [hostOps0, hostOps0_1, hostOps0_2, hostOps1, List.Forall, StableHlo.nullary_writes, StableHlo.unary_writes,
    StableHlo.binary_writes, StableHlo.ternary_writes, Finset.mem_singleton]
  repeat' apply And.intro
  all_goals exact StableHlo.devRef_ne_of_ne (by decide)))

/-- A buffer that none of the three stretches before the region writes holds its launch contents at the region's
    entry. -/
theorem entry_kept (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W1 m ρ c (Proc.devRef .tc b) = m ((c : Thread nD τ).loc b) :=
  calc W1 m ρ c (Proc.devRef .tc b)
    _ = Wb m ρ c (Proc.devRef .tc b) := StableHlo.after_of_forall_not_mem _ _ h2
    _ = Wa m ρ c (Proc.devRef .tc b) := StableHlo.after_of_forall_not_mem _ _ h1
    _ = W0 m ρ c (Proc.devRef .tc b) := StableHlo.after_of_forall_not_mem _ _ h0
    _ = m ((c : Thread nD τ).loc b) := rfl

/-- A buffer that no host operation writes and that is not the region's output ends at its launch contents. -/
theorem kept (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes)
    (h3 : ∀ op ∈ (hostOps1 : List (HloOp τ sig (Elt F))), Proc.devRef .tc b ∉ op.writes)
    (hb : main_v46 ≠ b) :
    W3 m ρ c (Proc.devRef .tc b) = m ((c : Thread nD τ).loc b) :=
  calc W3 m ρ c (Proc.devRef .tc b)
    _ = W2 m ρ c (Proc.devRef .tc b) := StableHlo.after_of_forall_not_mem _ _ h3
    _ = W1 m ρ c (Proc.devRef .tc b) := W2_of_ne m ρ c b hb
    _ = m ((c : Thread nD τ).loc b) := entry_kept m ρ c b h0 h1 h2

/-- The scale and the shift of the normalisation are still the arguments at the region's entry. -/
theorem entry_arg10 (c : Dev nD) : W1 m ρ c (Proc.devRef .tc main_arg10) = m ((c : Thread nD τ).loc main_arg10) :=
  entry_kept m ρ c main_arg10 (by no_host_write) (by no_host_write) (by no_host_write)
theorem entry_arg11 (c : Dev nD) : W1 m ρ c (Proc.devRef .tc main_arg11) = m ((c : Thread nD τ).loc main_arg11) :=
  entry_kept m ρ c main_arg11 (by no_host_write) (by no_host_write) (by no_host_write)

/-- The last stretch does not write the region's output. -/
theorem out_kept (c : Dev nD) : W3 m ρ c (Proc.devRef .tc main_v46) = W2 m ρ c (Proc.devRef .tc main_v46) :=
  StableHlo.after_of_forall_not_mem _ _ (by no_host_write)

theorem kept_arg0 (c : Dev nD) : W3 m ρ c (Proc.devRef .tc main_arg0) = m ((c : Thread nD τ).loc main_arg0) :=
  kept m ρ c main_arg0 (by no_host_write) (by no_host_write) (by no_host_write) (by no_host_write) (by decide)
theorem kept_arg1 (c : Dev nD) : W3 m ρ c (Proc.devRef .tc main_arg1) = m ((c : Thread nD τ).loc main_arg1) :=
  kept m ρ c main_arg1 (by no_host_write) (by no_host_write) (by no_host_write) (by no_host_write) (by decide)
theorem kept_arg2 (c : Dev nD) : W3 m ρ c (Proc.devRef .tc main_arg2) = m ((c : Thread nD τ).loc main_arg2) :=
  kept m ρ c main_arg2 (by no_host_write) (by no_host_write) (by no_host_write) (by no_host_write) (by decide)
theorem kept_arg3 (c : Dev nD) : W3 m ρ c (Proc.devRef .tc main_arg3) = m ((c : Thread nD τ).loc main_arg3) :=
  kept m ρ c main_arg3 (by no_host_write) (by no_host_write) (by no_host_write) (by no_host_write) (by decide)
theorem kept_arg4 (c : Dev nD) : W3 m ρ c (Proc.devRef .tc main_arg4) = m ((c : Thread nD τ).loc main_arg4) :=
  kept m ρ c main_arg4 (by no_host_write) (by no_host_write) (by no_host_write) (by no_host_write) (by decide)
theorem kept_arg5 (c : Dev nD) : W3 m ρ c (Proc.devRef .tc main_arg5) = m ((c : Thread nD τ).loc main_arg5) :=
  kept m ρ c main_arg5 (by no_host_write) (by no_host_write) (by no_host_write) (by no_host_write) (by decide)
theorem kept_arg6 (c : Dev nD) : W3 m ρ c (Proc.devRef .tc main_arg6) = m ((c : Thread nD τ).loc main_arg6) :=
  kept m ρ c main_arg6 (by no_host_write) (by no_host_write) (by no_host_write) (by no_host_write) (by decide)
theorem kept_arg7 (c : Dev nD) : W3 m ρ c (Proc.devRef .tc main_arg7) = m ((c : Thread nD τ).loc main_arg7) :=
  kept m ρ c main_arg7 (by no_host_write) (by no_host_write) (by no_host_write) (by no_host_write) (by decide)
theorem kept_arg8 (c : Dev nD) : W3 m ρ c (Proc.devRef .tc main_arg8) = m ((c : Thread nD τ).loc main_arg8) :=
  kept m ρ c main_arg8 (by no_host_write) (by no_host_write) (by no_host_write) (by no_host_write) (by decide)
theorem kept_arg9 (c : Dev nD) : W3 m ρ c (Proc.devRef .tc main_arg9) = m ((c : Thread nD τ).loc main_arg9) :=
  kept m ρ c main_arg9 (by no_host_write) (by no_host_write) (by no_host_write) (by no_host_write) (by decide)
theorem kept_arg10 (c : Dev nD) : W3 m ρ c (Proc.devRef .tc main_arg10) = m ((c : Thread nD τ).loc main_arg10) :=
  kept m ρ c main_arg10 (by no_host_write) (by no_host_write) (by no_host_write) (by no_host_write) (by decide)
theorem kept_arg11 (c : Dev nD) : W3 m ρ c (Proc.devRef .tc main_arg11) = m ((c : Thread nD τ).loc main_arg11) :=
  kept m ρ c main_arg11 (by no_host_write) (by no_host_write) (by no_host_write) (by no_host_write) (by decide)

/-- THE FRAME: every weakly fair execution of @main terminates, nothing faulting, with the twelve argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (kept_arg0 m ρ c),
      (h c _ (mem_uc main_arg1 (by decide))).trans (kept_arg1 m ρ c),
      (h c _ (mem_uc main_arg2 (by decide))).trans (kept_arg2 m ρ c),
      (h c _ (mem_uc main_arg3 (by decide))).trans (kept_arg3 m ρ c),
      (h c _ (mem_uc main_arg4 (by decide))).trans (kept_arg4 m ρ c),
      (h c _ (mem_uc main_arg5 (by decide))).trans (kept_arg5 m ρ c),
      (h c _ (mem_uc main_arg6 (by decide))).trans (kept_arg6 m ρ c),
      (h c _ (mem_uc main_arg7 (by decide))).trans (kept_arg7 m ρ c),
      (h c _ (mem_uc main_arg8 (by decide))).trans (kept_arg8 m ρ c),
      (h c _ (mem_uc main_arg9 (by decide))).trans (kept_arg9 m ρ c),
      (h c _ (mem_uc main_arg10 (by decide))).trans (kept_arg10 m ρ c),
      (h c _ (mem_uc main_arg11 (by decide))).trans (kept_arg11 m ρ c)⟩)
    (run_all m ρ)

end Cert.Kernel.Gram

end
-- ==== Proof.RegionKernelIdeal.lean ====
/-
  The Gram kernel's region, seen from any contents `V` of the core's buffers at the moment the region is entered.

  The grid has 16 × 5 points. At point (i, j) the body reads block i of 1000 rows of the 16000 × 192 matrix A
  through window 0 and block j of 3200 rows of the SAME matrix through window 1, multiplies the first by the
  transpose of the second, halves the product, and stores the 1000 × 3200 result whole into window 2's buffer,
  which is written back as block (i, j) of the 16000 × 16000 output. Both input windows leave their blocks as
  they found them, so every input staging buffer holds its block of A at every point, fetched there or not.

  What is proved here, for any float instance: the body's triple on whole staging buffers, the proof data of
  the pipeline (what each window's buffer holds after the body at each point), and the body obligation at
  every point. The two windows that read A hold it at complementary half shares.
-/
import proofs.«167292_j14035953123515_1_alg».proof.Proof.Gen.KernelIdeal.Launch
import proofs.«167292_j14035953123515_1_alg».proof.Proof.Gen.KernelIdeal.Skeleton
import proofs.«167292_j14035953123515_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block `t` of window `w`, cut out of the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (rows of A by the grid's first coordinate) is refetched only when that coordinate moves; between
    fetches the body leaves the block in place, so the current buffer holds block `t` at every point. -/
theorem rows_stay {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Window 1 (rows of A by the grid's second coordinate), likewise. -/
theorem cols_stay {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer whole -/

abbrev rectRows : Rect S1000x192 := Rect.unit (s := S1000x192) ![0, 0] S1000x192.size inb_S1000x192_S1000x192_0_0
abbrev rectCols : Rect S3200x192 := Rect.unit (s := S3200x192) ![0, 0] S3200x192.size inb_S3200x192_S3200x192_0_0
abbrev rectOut : Rect S1000x3200 := Rect.unit (s := S1000x3200) ![0, 0] S1000x3200.size inb_S1000x3200_S1000x3200_0_0

/-- The output buffer after the body: its one store, the halved product of the two blocks read. -/
def halfGram (x0 : Vec F S1000x192 .bf16) (x1 : Vec F S3200x192 .bf16) : Vec F S1000x3200 .f32 :=
  View.canon [⟨rectOut, k0_pay1 (View.ld x0 rectRows) (View.ld x1 rectCols)⟩]

/-- The one store covers the whole buffer. -/
theorem store_covers (p0 : Vec F S1000x3200 .f32) (y : S1000x3200.Idx) :
    ∃ pc ∈ ([⟨rectOut, p0⟩] : List (View.Piece (Elt F) S1000x3200 .f32)), y ∈ pc.1.set :=
  View.cover_of_tiled [⟨rectOut, p0⟩] S1000x3200.size (by rfl) y

/-! ## The body's triple -/

set_option maxHeartbeats 1000000 in
/-- On whole staging buffers, the inputs at contents `x0`, `x1` and the output at anything, the body runs to the
    continuation with the inputs as they were and the output at `halfGram x0 x1`. -/
theorem body_triple (c : Dev nD) (E : Set ℕ) (i : grid0.Coords) (arg0 : Memref sig .tc .vmem S1000x192 .bf16) (harg0 : arg0.IsWhole)
    (arg1 : Memref sig .tc .vmem S3200x192 .bf16) (harg1 : arg1.IsWhole) (arg2 : Memref sig .tc .vmem S1000x3200 .f32) (harg2 : arg2.IsWhole)
    (x0 : Vec F S1000x192 .bf16) (x1 : Vec F S3200x192 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (halfGram x0 x1)) -∗ K ⟨⟩))
      ⊢ wp frame (wpE (defs₀ (F := F)) Variants.none c none) E (cc0__sym_gram_kernel i arg0 harg0 arg1 harg1 arg2 harg2) K := by
  simp only [cc0__sym_gram_kernel_eq_skeleton]; unfold cc0__sym_gram_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- On core `c`: the arrays as the region finds them; after the body at point `t` each input buffer at its block
    and the output buffer at the halved product of the two blocks; the invariant is the scoped rest and the
    generator register, untouched; nothing owed; the two readers of A at complementary halves of its share. -/
def gramDat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => halfGram (blockAt V c 0 t) (blockAt V c 1 t)
  Φ _ := Pipeline.ΦA spec0 c
  q w := match w with
    | ⟨0, _⟩ => fullShare.left
    | ⟨1, _⟩ => fullShare.right
    | ⟨2, _⟩ => fullShare
  owed _ := 0

theorem gramDat_A (c : Dev nD) (w : Fin cfg0.W) : (gramDat V c).A w = V c (Pipeline.arrRef spec0 w) := by
  dsimp only [gramDat]

theorem after_rows (c : Dev nD) (t : Fin cfg0.N) : (gramDat V c).after 0 t = blockAt V c 0 t := by dsimp only [gramDat]
theorem after_cols (c : Dev nD) (t : Fin cfg0.N) : (gramDat V c).after 1 t = blockAt V c 1 t := by dsimp only [gramDat]
theorem after_out (c : Dev nD) (t : Fin cfg0.N) : (gramDat V c).after 2 t = halfGram (blockAt V c 0 t) (blockAt V c 1 t) := by dsimp only [gramDat]

theorem before_rows (c : Dev nD) (t : Fin cfg0.N) (d) : (gramDat V c).before 0 t d = blockAt V c 0 t :=
  rows_stay V (gramDat V c) (gramDat_A V c 0) (after_rows V c) t d
theorem before_cols (c : Dev nD) (t : Fin cfg0.N) (d) : (gramDat V c).before 1 t d = blockAt V c 1 t :=
  cols_stay V (gramDat V c) (gramDat_A V c 1) (after_cols V c) t d

/-! ## The body obligation at a generic point -/

/-- What the body is called with at point `t`, -/
def pointPre (c : Dev nD) (t : Fin cfg0.N) : sProp 𝕄 :=
  iprop((gramDat V c).Φ t.castSucc ∗ (gramDat V c).owesAt () t.castSucc
    ∗ (∃ d, owns (c : Thread nD τ) (st0_0 t) fullShare ((gramDat V c).before 0 t d))
    ∗ (∃ d, owns (c : Thread nD τ) (st0_1 t) fullShare ((gramDat V c).before 1 t d))
    ∗ (∃ d, owns (c : Thread nD τ) (st0_2 t) fullShare ((gramDat V c).before 2 t d)))

/-- and what it returns. -/
def pointPost (c : Dev nD) (t : Fin cfg0.N) : sProp 𝕄 :=
  iprop((gramDat V c).Φ t.succ ∗ (gramDat V c).owesAt () t.succ
    ∗ owns (c : Thread nD τ) (st0_0 t) fullShare ((gramDat V c).after 0 t)
    ∗ owns (c : Thread nD τ) (st0_1 t) fullShare ((gramDat V c).after 1 t)
    ∗ owns (c : Thread nD τ) (st0_2 t) fullShare ((gramDat V c).after 2 t))

theorem body_at (c : Dev nD) (t : Fin cfg0.N) :
    pointPre V c t ⊢ wp frame (wpE (defs₀ (F := F)) Variants.none c none) Set.univ (bodyAt0 t) (fun _ => pointPost V c t) := by
  unfold pointPre pointPost bodyAt0
  simp only [before_rows, before_cols]
  rw [show (gramDat V c).Φ t.succ = (gramDat V c).Φ t.castSucc from rfl,
    show (gramDat V c).owesAt () t.succ = (gramDat V c).owesAt () t.castSucc from rfl,
    after_rows, after_cols, after_out]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (gramDat (F := F) V c) (defs₀ (F := F)) Variants.none () Set.univ := fun t => by
  rw [bigSep_W0, bigSep_W0]
  exact body_at V c t

end Cert.KernelIdeal.Gram

end
-- ==== Proof.RunKernelIdeal.lean ====
/-
  The whole run of @main around the Gram region, for any float instance.

  @main is three stretches of host operations (they build h, put A = [h | x] together and narrow it to bf16),
  the one region, and a last stretch (the batch normalisation of h). The contents of every unscoped buffer are
  followed from boundary to boundary: at launch, after each host stretch, and across the region, which changes
  one buffer only — the 16000 × 16000 output, left at what the pipeline's write-backs make of it.

  The region's two reading windows are handed the SAME array A. At the region's entry the full share of A is cut
  into its left and right halves, one per window; at the exit the halves, still at A's contents, are put back
  together. Everything else is routed as for a kernel whose windows read distinct arrays.

  The result is one run theorem whose post names the final contents of every unscoped buffer; the frame claim
  and the two results are read off it.
-/
import proofs.«167292_j14035953123515_1_alg».proof.Proof.RegionKernelIdeal

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first stretch (up to the pre-activation of the first layer), -/
abbrev Wa : Dev nD → Valuation τ sig (Elt F) := fun c => StableHlo.after hostOps0 (W0 m ρ c)
/-- after the rectifier, -/
abbrev Wb : Dev nD → Valuation τ sig (Elt F) := fun c => StableHlo.after hostOps0_1 (Wa m ρ c)
/-- and at the region's entry: h, A = [h | x] and its bf16 copy are there. -/
abbrev W1 : Dev nD → Valuation τ sig (Elt F) := fun c => StableHlo.after hostOps0_2 (Wb m ρ c)
abbrev V1 : (c : Dev nD) → (b : Ref sig .tc) → Buf (Elt F) ((c : Thread nD τ).loc b) := fun c b => W1 m ρ c b

/-- At the region's exit: the output array at what the write-backs leave, every other buffer as entered. -/
def W2 (c : Dev nD) : Valuation τ sig (Elt F) := fun b =>
  if h : Proc.devRef .tc main_v46 = b then
    cast (congrArg (fun b' : DevRef τ sig => b'.ty.Contents (Elt F)) h) ((gramDat (V1 m ρ) c).arrAt 2 cfg0.N)
  else W1 m ρ c b

theorem W2_out (c : Dev nD) : W2 m ρ c (Proc.devRef .tc main_v46) = (gramDat (V1 m ρ) c).arrAt 2 cfg0.N := by
  unfold W2; rw [dif_pos rfl]; rfl

theorem W2_of_ne (c : Dev nD) (b : Ref sig .tc) (hb : main_v46 ≠ b) :
    W2 m ρ c (Proc.devRef .tc b) = W1 m ρ c (Proc.devRef .tc b) := by
  unfold W2; rw [dif_neg]; intro e; exact hb (Proc.devRef_injective _ e)

abbrev V2 : (c : Dev nD) → (b : Ref sig .tc) → Buf (Elt F) ((c : Thread nD τ).loc b) := fun c b => W2 m ρ c b

/-- After the last stretch: the final contents. -/
abbrev W3 : Dev nD → Valuation τ sig (Elt F) := fun c => StableHlo.after hostOps1 (W2 m ρ c)

/-! ## The proof data family and what rides beside the buffers -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => gramDat (V1 m ρ) c
abbrev 𝒱₀ : Variants := Variants.none
/-- No core owes another anything. -/
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W3 m ρ c) ∗ ∃ r, prngReg c r)

/-! ## One array, two readers: cutting A's share at the entry and joining it at the exit -/

/-- The distinct buffers behind the three windows: A's bf16 copy and the output. -/
theorem arr_bufs : (Finset.univ.image (Pipeline.arrRef spec0) : Finset (Ref sig .tc)) = [main_v45, main_v46].toFinset := by decide

/-- The two buffers conjoined one by one. -/
theorem bigSep_bufs {M : Type} [URA M] (Φ : Ref sig .tc → sProp M) :
    bigSep (Finset.univ.image (Pipeline.arrRef spec0)) Φ = iprop(Φ main_v45 ∗ Φ main_v46) :=
  bigSep_eq_bigSepL_of_eq [main_v45, main_v46] arr_bufs (by decide) Φ

/-- The three windows' shares of their arrays. -/
theorem share_rows (V : (c : Dev nD) → (b : Ref sig .tc) → Buf (Elt F) ((c : Thread nD τ).loc b)) (c : Dev nD) :
    (gramDat V c).share 0 = fullShare.left := rfl
theorem share_cols (V : (c : Dev nD) → (b : Ref sig .tc) → Buf (Elt F) ((c : Thread nD τ).loc b)) (c : Dev nD) :
    (gramDat V c).share 1 = fullShare.right := rfl
theorem share_out (V : (c : Dev nD) → (b : Ref sig .tc) → Buf (Elt F) ((c : Thread nD τ).loc b)) (c : Dev nD) :
    (gramDat V c).share 2 = fullShare := rfl

/-- CUT: the two buffers whole, at a valuation's contents, give the three windows their arrays at their shares —
    A's full share is its left half beside its right half. -/
theorem bufs_to_arrays (V : (c : Dev nD) → (b : Ref sig .tc) → Buf (Elt F) ((c : Thread nD τ).loc b)) (c : Dev nD)
    (V' : (b : Ref sig .tc) → Buf (Elt F) ((c : Thread nD τ).loc b))
    (Fw : (w : Fin cfg0.W) → Buf (Elt F) ((cfg0.win w).arr.view.loc (c : Thread nD τ)))
    (h0 : Fw 0 = V' main_v45) (h1 : Fw 1 = V' main_v45) (h2 : Fw 2 = V' main_v46) :
    (Pipeline.arrBufs spec0 c V' : sProp 𝕄) ⊢ (gramDat V c).arrays Fw := by
  unfold Pipeline.Dat.arrays Pipeline.arrBufs
  rw [bigSep_W0, bigSep_bufs]
  rw [(arr_whole0 0).set_eq_univ, (arr_whole0 2).set_eq_univ,
    share_rows, share_cols, share_out, h0, h1, h2]
  iintro ⟨HA, HO⟩
  ihave Hs := (pointsTo_share (PosShare.mem_left_op_right fullShare)).mp $$ HA
  icases Hs with ⟨Hl, Hr⟩
  isplitl [Hl]; · iexact Hl
  isplitl [Hr]; · iexact Hr
  iexact HO

/-- JOIN: the converse — the two halves of A's share, at the same contents, are its full share again. -/
theorem arrays_to_bufs (V : (c : Dev nD) → (b : Ref sig .tc) → Buf (Elt F) ((c : Thread nD τ).loc b)) (c : Dev nD)
    (V' : (b : Ref sig .tc) → Buf (Elt F) ((c : Thread nD τ).loc b))
    (Fw : (w : Fin cfg0.W) → Buf (Elt F) ((cfg0.win w).arr.view.loc (c : Thread nD τ)))
    (h0 : Fw 0 = V' main_v45) (h1 : Fw 1 = V' main_v45) (h2 : Fw 2 = V' main_v46) :
    ((gramDat V c).arrays Fw : sProp 𝕄) ⊢ Pipeline.arrBufs spec0 c V' := by
  unfold Pipeline.Dat.arrays Pipeline.arrBufs
  rw [bigSep_W0, bigSep_bufs]
  rw [(arr_whole0 0).set_eq_univ, (arr_whole0 2).set_eq_univ,
    share_rows, share_cols, share_out, h0, h1, h2]
  iintro ⟨Hl, Hr, HO⟩
  isplitl [Hl Hr]
  · iapply (pointsTo_share (PosShare.mem_left_op_right fullShare)).mpr
    isplitl [Hl] <;> iassumption
  iexact HO

/-! ## Entry and exit of the region over every unscoped buffer -/

/-- ENTRY: the unscoped buffers at the entry contents are the windows' arrays — A at its two half shares, the
    output whole — and the rest. -/
theorem entry_split (c : Dev nD) :
    (unscopedBufs (Ix := Unit) (Name := ℕ) (U := UR sig nD τ) (Lvl := ℕ) c (V1 m ρ c) : sProp 𝕄)
      ⊢ iprop((pdats m ρ 0 c).arrays ((pdats m ρ 0 c).arrAt · 0) ∗ Pipeline.unscopedRest spec0 c (V1 m ρ c)) := by
  show _ ⊢ iprop((gramDat (V1 m ρ) c).arrays ((gramDat (V1 m ρ) c).arrAt · 0) ∗ Pipeline.unscopedRest spec0 c (V1 m ρ c))
  rw [Pipeline.unscopedBufs_split₀ cfgs 0 winFacts₀0.arr_unscoped c (V1 m ρ c)]
  exact sep_mono (bufs_to_arrays (V1 m ρ) c (V1 m ρ c) _ (gramDat_A (V1 m ρ) c 0) (gramDat_A (V1 m ρ) c 1) (gramDat_A (V1 m ρ) c 2)) .rfl

/-- EXIT: the arrays as the pipeline leaves them — A unchanged at both readers, the output at its write-backs —
    and the rest are the unscoped buffers at the exit contents. -/
theorem exit_join (c : Dev nD) :
    iprop((pdats m ρ 0 c).arrays ((pdats m ρ 0 c).arrAt · cfg0.N) ∗ Pipeline.unscopedRest spec0 c (V1 m ρ c))
      ⊢ (unscopedBufs (Ix := Unit) (Name := ℕ) (U := UR sig nD τ) (Lvl := ℕ) c (V2 m ρ c) : sProp 𝕄) := by
  show iprop((gramDat (V1 m ρ) c).arrays ((gramDat (V1 m ρ) c).arrAt · cfg0.N) ∗ Pipeline.unscopedRest spec0 c (V1 m ρ c)) ⊢ _
  rw [Pipeline.unscopedBufs_split₀ cfgs 0 winFacts₀0.arr_unscoped c (V2 m ρ c)]
  refine sep_mono (arrays_to_bufs (V1 m ρ) c (V2 m ρ c) _
    ((((gramDat (V1 m ρ) c).arrAt_in 0 rfl _).trans (gramDat_A (V1 m ρ) c 0)).trans (W2_of_ne m ρ c main_v45 (by decide)).symm)
    ((((gramDat (V1 m ρ) c).arrAt_in 1 rfl _).trans (gramDat_A (V1 m ρ) c 1)).trans (W2_of_ne m ρ c main_v45 (by decide)).symm)
    (W2_out m ρ c).symm) (Entails.of_eq ?_)
  unfold Pipeline.unscopedRest
  exact bigSep_congr fun b hb => by
    rw [show V2 m ρ c b = V1 m ρ c b from W2_of_ne m ρ c b fun e =>
      (Finset.mem_sdiff.mp hb).2 (Finset.mem_image.mpr ⟨2, Finset.mem_univ _, e⟩)]

/-! ## The region as a segment -/

set_option backward.isDefEq.respectTransparency.types false in
/-- The region over the thread state: entered from every unscoped buffer at `W1`, left at `W2`. The generator
    register goes into the pipeline's invariant and comes back; nothing is owed; the kernel has no semaphore of
    its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments: three host stretches, the region, the last host stretch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main on the TensorCores
    terminates, nothing faulting, and every unscoped buffer ends at the contents the fold through @main names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Gram

end
-- ==== Proof.KeptKernelIdeal.lean ====
/-
  The frame, read off the run: the argument arrays end as they were launched.

  The run names the final contents of every unscoped buffer as a fold through @main: the last host stretch applied
  to the region's exit contents, those being the entry contents but for the output array, those the three earlier
  stretches applied to the launch memory. No host operation writes an argument array (each writes its own fresh
  result buffer), and the region writes only its output; so walking the fold back at an argument's buffer reaches
  the launch memory.
-/
import proofs.«167292_j14035953123515_1_alg».proof.Proof.RunKernelIdeal

set_option maxRecDepth 16384

noncomputable section

namespace Cert.KernelIdeal.Gram

open Idealize.ShloMosaic Idealize.ShloMosaic.TcCoe Idealize.ShloMosaic.Tactic
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- No operation of a host stretch writes the reference in the goal: each operation writes one buffer, and that
    buffer is another reference. -/
macro "no_host_write" : tactic => `(tactic| (
  refine List.forall_iff_forall_mem.mp ?_
  simp only [hostOps0, hostOps0_1, hostOps0_2, hostOps1, List.Forall, StableHlo.nullary_writes, StableHlo.unary_writes,
    StableHlo.binary_writes, StableHlo.ternary_writes, Finset.mem_singleton]
  repeat' apply And.intro
  all_goals exact StableHlo.devRef_ne_of_ne (by decide)))

/-- A buffer that none of the three stretches before the region writes holds its launch contents at the region's
    entry. -/
theorem entry_kept (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W1 m ρ c (Proc.devRef .tc b) = m ((c : Thread nD τ).loc b) :=
  calc W1 m ρ c (Proc.devRef .tc b)
    _ = Wb m ρ c (Proc.devRef .tc b) := StableHlo.after_of_forall_not_mem _ _ h2
    _ = Wa m ρ c (Proc.devRef .tc b) := StableHlo.after_of_forall_not_mem _ _ h1
    _ = W0 m ρ c (Proc.devRef .tc b) := StableHlo.after_of_forall_not_mem _ _ h0
    _ = m ((c : Thread nD τ).loc b) := rfl

/-- A buffer that no host operation writes and that is not the region's output ends at its launch contents. -/
theorem kept (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes)
    (h3 : ∀ op ∈ (hostOps1 : List (HloOp τ sig (Elt F))), Proc.devRef .tc b ∉ op.writes)
    (hb : main_v46 ≠ b) :
    W3 m ρ c (Proc.devRef .tc b) = m ((c : Thread nD τ).loc b) :=
  calc W3 m ρ c (Proc.devRef .tc b)
    _ = W2 m ρ c (Proc.devRef .tc b) := StableHlo.after_of_forall_not_mem _ _ h3
    _ = W1 m ρ c (Proc.devRef .tc b) := W2_of_ne m ρ c b hb
    _ = m ((c : Thread nD τ).loc b) := entry_kept m ρ c b h0 h1 h2

/-- The scale and the shift of the normalisation are still the arguments at the region's entry. -/
theorem entry_arg10 (c : Dev nD) : W1 m ρ c (Proc.devRef .tc main_arg10) = m ((c : Thread nD τ).loc main_arg10) :=
  entry_kept m ρ c main_arg10 (by no_host_write) (by no_host_write) (by no_host_write)
theorem entry_arg11 (c : Dev nD) : W1 m ρ c (Proc.devRef .tc main_arg11) = m ((c : Thread nD τ).loc main_arg11) :=
  entry_kept m ρ c main_arg11 (by no_host_write) (by no_host_write) (by no_host_write)

/-- The last stretch does not write the region's output. -/
theorem out_kept (c : Dev nD) : W3 m ρ c (Proc.devRef .tc main_v46) = W2 m ρ c (Proc.devRef .tc main_v46) :=
  StableHlo.after_of_forall_not_mem _ _ (by no_host_write)

theorem kept_arg0 (c : Dev nD) : W3 m ρ c (Proc.devRef .tc main_arg0) = m ((c : Thread nD τ).loc main_arg0) :=
  kept m ρ c main_arg0 (by no_host_write) (by no_host_write) (by no_host_write) (by no_host_write) (by decide)
theorem kept_arg1 (c : Dev nD) : W3 m ρ c (Proc.devRef .tc main_arg1) = m ((c : Thread nD τ).loc main_arg1) :=
  kept m ρ c main_arg1 (by no_host_write) (by no_host_write) (by no_host_write) (by no_host_write) (by decide)
theorem kept_arg2 (c : Dev nD) : W3 m ρ c (Proc.devRef .tc main_arg2) = m ((c : Thread nD τ).loc main_arg2) :=
  kept m ρ c main_arg2 (by no_host_write) (by no_host_write) (by no_host_write) (by no_host_write) (by decide)
theorem kept_arg3 (c : Dev nD) : W3 m ρ c (Proc.devRef .tc main_arg3) = m ((c : Thread nD τ).loc main_arg3) :=
  kept m ρ c main_arg3 (by no_host_write) (by no_host_write) (by no_host_write) (by no_host_write) (by decide)
theorem kept_arg4 (c : Dev nD) : W3 m ρ c (Proc.devRef .tc main_arg4) = m ((c : Thread nD τ).loc main_arg4) :=
  kept m ρ c main_arg4 (by no_host_write) (by no_host_write) (by no_host_write) (by no_host_write) (by decide)
theorem kept_arg5 (c : Dev nD) : W3 m ρ c (Proc.devRef .tc main_arg5) = m ((c : Thread nD τ).loc main_arg5) :=
  kept m ρ c main_arg5 (by no_host_write) (by no_host_write) (by no_host_write) (by no_host_write) (by decide)
theorem kept_arg6 (c : Dev nD) : W3 m ρ c (Proc.devRef .tc main_arg6) = m ((c : Thread nD τ).loc main_arg6) :=
  kept m ρ c main_arg6 (by no_host_write) (by no_host_write) (by no_host_write) (by no_host_write) (by decide)
theorem kept_arg7 (c : Dev nD) : W3 m ρ c (Proc.devRef .tc main_arg7) = m ((c : Thread nD τ).loc main_arg7) :=
  kept m ρ c main_arg7 (by no_host_write) (by no_host_write) (by no_host_write) (by no_host_write) (by decide)
theorem kept_arg8 (c : Dev nD) : W3 m ρ c (Proc.devRef .tc main_arg8) = m ((c : Thread nD τ).loc main_arg8) :=
  kept m ρ c main_arg8 (by no_host_write) (by no_host_write) (by no_host_write) (by no_host_write) (by decide)
theorem kept_arg9 (c : Dev nD) : W3 m ρ c (Proc.devRef .tc main_arg9) = m ((c : Thread nD τ).loc main_arg9) :=
  kept m ρ c main_arg9 (by no_host_write) (by no_host_write) (by no_host_write) (by no_host_write) (by decide)
theorem kept_arg10 (c : Dev nD) : W3 m ρ c (Proc.devRef .tc main_arg10) = m ((c : Thread nD τ).loc main_arg10) :=
  kept m ρ c main_arg10 (by no_host_write) (by no_host_write) (by no_host_write) (by no_host_write) (by decide)
theorem kept_arg11 (c : Dev nD) : W3 m ρ c (Proc.devRef .tc main_arg11) = m ((c : Thread nD τ).loc main_arg11) :=
  kept m ρ c main_arg11 (by no_host_write) (by no_host_write) (by no_host_write) (by no_host_write) (by decide)

/-- THE FRAME: every weakly fair execution of @main terminates, nothing faulting, with the twelve argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (kept_arg0 m ρ c),
      (h c _ (mem_uc main_arg1 (by decide))).trans (kept_arg1 m ρ c),
      (h c _ (mem_uc main_arg2 (by decide))).trans (kept_arg2 m ρ c),
      (h c _ (mem_uc main_arg3 (by decide))).trans (kept_arg3 m ρ c),
      (h c _ (mem_uc main_arg4 (by decide))).trans (kept_arg4 m ρ c),
      (h c _ (mem_uc main_arg5 (by decide))).trans (kept_arg5 m ρ c),
      (h c _ (mem_uc main_arg6 (by decide))).trans (kept_arg6 m ρ c),
      (h c _ (mem_uc main_arg7 (by decide))).trans (kept_arg7 m ρ c),
      (h c _ (mem_uc main_arg8 (by decide))).trans (kept_arg8 m ρ c),
      (h c _ (mem_uc main_arg9 (by decide))).trans (kept_arg9 m ρ c),
      (h c _ (mem_uc main_arg10 (by decide))).trans (kept_arg10 m ρ c),
      (h c _ (mem_uc main_arg11 (by decide))).trans (kept_arg11 m ρ c)⟩)
    (run_all m ρ)

end Cert.KernelIdeal.Gram

end
-- ==== Proof.HostStages.lean ====
/-
  What the region finds, at the ideal values: the matrix h and the matrix A = [h | x].

  The three host stretches before the region compute h from the arguments by the very operations the reference
  applies, in the same order and with the same literals. They are followed one stretch at a time, each from the
  contents the stretch before it left:
    · the first stretch leaves the skip projection x·Wᵀ + b and the first layer's pre-activation (gather, scatter-add,
      linear layer);
    · the second is the rectifier;
    · the third gathers and scatter-adds the activations again, applies the second linear layer, blends the two paths
      as (1 − ε)·h₁ + ε·h₂ into h, puts h beside x and narrows the result to bf16.
  At each boundary the buffers hold the reference's own stage functions of the kernel's arguments.
-/
import proofs.«167292_j14035953123515_1_alg».proof.Proof.KeptKernelIdeal
import proofs.«167292_j14035953123515_1_alg».proof.Proof.Gen.ReferenceIdeal.Read

set_option maxRecDepth 16384

noncomputable section

namespace Cert.KernelIdeal.Gram

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- A buffer the first two stretches do not write holds its launch contents after them. -/
theorem mid_kept (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes) :
    Wb m ρ c (Proc.devRef .tc b) = m ((c : Thread nD τ).loc b) :=
  calc Wb m ρ c (Proc.devRef .tc b)
    _ = Wa m ρ c (Proc.devRef .tc b) := StableHlo.after_of_forall_not_mem _ _ h1
    _ = W0 m ρ c (Proc.devRef .tc b) := StableHlo.after_of_forall_not_mem _ _ h0
    _ = m ((c : Thread nD τ).loc b) := rfl

set_option maxHeartbeats 4000000 in
/-- After the first stretch: the skip projection. -/
theorem skip_after_first (c : Dev nD) :
    Wa m ρ c (Proc.devRef .tc main_v4) = Cert.ReferenceIdeal.Read.val_main_v4 (F := Ideal) (m ((c.tc : Thread nD τ).loc main_arg0)) (m ((c.tc : Thread nD τ).loc main_arg3)) (m ((c.tc : Thread nD τ).loc main_arg4)) := by
  show StableHlo.after hostOps0 (W0 m ρ c) (Proc.devRef .tc main_v4) = _
  after_results_simp
  rfl

set_option maxHeartbeats 4000000 in
/-- After the first stretch: the first layer's pre-activation. -/
theorem layer1_after_first (c : Dev nD) :
    Wa m ρ c (Proc.devRef .tc main_v19) = Cert.ReferenceIdeal.Read.val_main_v19 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  show StableHlo.after hostOps0 (W0 m ρ c) (Proc.devRef .tc main_v19) = _
  after_results_simp
  rfl

set_option maxHeartbeats 4000000 in
/-- After the rectifier: the first layer's activations. -/
theorem act_after_second (c : Dev nD) :
    Wb m ρ c (Proc.devRef .tc main_v20) = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  show StableHlo.after hostOps0_1 (Wa m ρ c) (Proc.devRef .tc main_v20) = _
  have e := layer1_after_first m ρ c
  generalize Wa m ρ c = B at e ⊢
  after_results_simp
  rw [e]
  rfl

/-- The rectifier leaves the skip projection alone. -/
theorem skip_after_second (c : Dev nD) :
    Wb m ρ c (Proc.devRef .tc main_v4) = Cert.ReferenceIdeal.Read.val_main_v4 (F := Ideal) (m ((c.tc : Thread nD τ).loc main_arg0)) (m ((c.tc : Thread nD τ).loc main_arg3)) (m ((c.tc : Thread nD τ).loc main_arg4)) :=
  (StableHlo.after_of_forall_not_mem (b := Proc.devRef .tc main_v4) _ _ (by no_host_write)).trans (skip_after_first m ρ c)

/-- h, as the reference's stage function of the kernel's arguments. -/
def hOf (c : Dev nD) : S16000x64.Idx → EReal :=
  Cert.ReferenceIdeal.Read.val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

set_option maxHeartbeats 8000000 in
/-- At the region's entry the buffer of h holds it. -/
theorem entry_h (c : Dev nD) : W1 m ρ c (Proc.devRef .tc main_v43) = hOf m c := by
  unfold hOf
  show StableHlo.after hostOps0_2 (Wb m ρ c) (Proc.devRef .tc main_v43) = _
  have e20 := act_after_second m ρ c
  have e4 := skip_after_second m ρ c
  have e1 := mid_kept m ρ c main_arg1 (by no_host_write) (by no_host_write)
  have e2 := mid_kept m ρ c main_arg2 (by no_host_write) (by no_host_write)
  have e7 := mid_kept m ρ c main_arg7 (by no_host_write) (by no_host_write)
  have e8 := mid_kept m ρ c main_arg8 (by no_host_write) (by no_host_write)
  have e9 := mid_kept m ρ c main_arg9 (by no_host_write) (by no_host_write)
  generalize Wb m ρ c = B at e20 e4 e1 e2 e7 e8 e9 ⊢
  after_results_simp
  rw [e20, e4, e1, e2, e7, e8, e9]
  rfl

set_option maxHeartbeats 8000000 in
/-- At the region's entry the array behind both reading windows is the narrowing of [h | x]. -/
theorem entry_A (c : Dev nD) :
    W1 m ρ c (Proc.devRef .tc main_v45)
      = truncf (F := Ideal) .bf16 (concatenate S16000x192 1
          [⟨S16000x64, hOf m c⟩, ⟨S16000x128, m ((c.tc : Thread nD τ).loc main_arg0)⟩]
          concatenates_S16000x64_S16000x128_S16000x192_d1) bitsLt_bf16_f32 := by
  unfold hOf
  show StableHlo.after hostOps0_2 (Wb m ρ c) (Proc.devRef .tc main_v45) = _
  have e20 := act_after_second m ρ c
  have e4 := skip_after_second m ρ c
  have e0 := mid_kept m ρ c main_arg0 (by no_host_write) (by no_host_write)
  have e1 := mid_kept m ρ c main_arg1 (by no_host_write) (by no_host_write)
  have e2 := mid_kept m ρ c main_arg2 (by no_host_write) (by no_host_write)
  have e7 := mid_kept m ρ c main_arg7 (by no_host_write) (by no_host_write)
  have e8 := mid_kept m ρ c main_arg8 (by no_host_write) (by no_host_write)
  have e9 := mid_kept m ρ c main_arg9 (by no_host_write) (by no_host_write)
  generalize Wb m ρ c = B at e20 e4 e0 e1 e2 e7 e8 e9 ⊢
  after_results_simp
  refine congrArg₂ (fun (X : S16000x64.Idx → EReal) (Y : S16000x128.Idx → EReal) =>
    truncf (F := Ideal) .bf16 (concatenate S16000x192 1 [⟨S16000x64, X⟩, ⟨S16000x128, Y⟩]
      concatenates_S16000x64_S16000x128_S16000x192_d1) bitsLt_bf16_f32) ?_ ?_
  · after_results_simp
    rw [e20, e4, e1, e2, e7, e8, e9]
    rfl
  · after_results_simp
    exact e0

end Cert.KernelIdeal.Gram

end
-- ==== Proof.HostExit.lean ====
/-
  The second result at the ideal values: the batch normalisation of h.

  After the region the host normalises h column by column — the column means, the centred squares' means, the
  reciprocal square root of the variance plus the constant, the scale and the shift — by the very operations the
  reference applies to its h, in the same order and with the same literals. The region does not touch h, the scale or
  the shift. So the second result is the reference's own last stage function, applied to the kernel's arguments.
-/
import proofs.«167292_j14035953123515_1_alg».proof.Proof.KeptKernelIdeal
import proofs.«167292_j14035953123515_1_alg».proof.Proof.HostStages

set_option maxRecDepth 16384

noncomputable section

namespace Cert.KernelIdeal.Gram

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 8000000 in
/-- The second result's buffer ends at the reference's last stage of the kernel's arguments. -/
theorem exit_hn (c : Dev nD) :
    W3 m ρ c (Proc.devRef .tc main_v71)
      = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after hostOps1 (W2 m ρ c) (Proc.devRef .tc main_v71) = _
  after_results_simp
  rw [W2_of_ne m ρ c main_v43 (by decide), W2_of_ne m ρ c main_arg10 (by decide), W2_of_ne m ρ c main_arg11 (by decide),
    entry_h m ρ c, entry_arg10 m ρ c, entry_arg11 m ρ c]
  unfold hOf
  rfl

end Cert.KernelIdeal.Gram

end
-- ==== Proof.GramPayload.lean ====
/-
  The Gram body's arithmetic at the ideal values, entry by entry.

  The body multiplies a 1000 × 192 block R by the transpose of a 3200 × 192 block C, accumulating into zero, and
  halves the product. At row p and column q of the 1000 × 3200 result that is

      ( Σ_{k < 192} R[p,k] · C[q,k] ) · ½ :

  the product contracts the column axis of BOTH operands, so the left factor is read at (p, k) and the right one at
  (q, k); the accumulator is the zero splat, which adds nothing; a cast to the same shape changes no entry.
-/
import proofs.«167292_j14035953123515_1_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Gram

open Idealize.ShloMosaic Idealize.ShloMosaic.ValueIdx
open Cert.KernelIdeal Cert.KernelIdeal.Gen
open scoped BigOperators

/-- One half, as both programs spell it. -/
abbrev half : EReal := Ideal.ofBits .f32 0x3F000000#32

/-- The body's product: rows of the first block against rows of the second, contracting the columns. -/
abbrev dK : DotDims S1000x192 S3200x192 S1000x3200 := dot_S1000x192_S3200x192_S1000x3200_1_1_0_0_n_n

theorem lhs_row (i : S1000x3200.Idx) (q : dK.contr.Idx) : (dK.lhsIdx i q 0).val = (i 0).val := by
  unfold DotDims.lhsIdx
  rw [dif_neg (show ¬(0 : Fin S1000x192.rank) ∈ dK.lhsBatch by decide), dif_pos (show (0 : Fin S1000x192.rank) ∈ dK.lhsNonContracting by decide)]
  rfl
theorem lhs_col (i : S1000x3200.Idx) (q : dK.contr.Idx) : (dK.lhsIdx i q 1).val = (q ⟨0, by decide⟩).val :=
  dK.lhsIdx_val_of_single rfl i q
theorem rhs_row (i : S1000x3200.Idx) (q : dK.contr.Idx) : (dK.rhsIdx i q 0).val = (i 1).val := by
  unfold DotDims.rhsIdx
  rw [dif_neg (show ¬(0 : Fin S3200x192.rank) ∈ dK.rhsBatch by decide), dif_pos (show (0 : Fin S3200x192.rank) ∈ dK.rhsNonContracting by decide)]
  rfl
theorem rhs_col (i : S1000x3200.Idx) (q : dK.contr.Idx) : (dK.rhsIdx i q 1).val = (q ⟨0, by decide⟩).val :=
  dK.rhsIdx_val_of_single rfl i q

/-- The product alone, at row `p` and column `q`. -/
theorem product_apply (l : FVec Ideal S1000x192 .bf16) (r : FVec Ideal S3200x192 .bf16) (p : Fin 1000) (q : Fin 3200) :
    matmul (F := Ideal) dK none l r (constant (F := Ideal) S1000x3200 .f32 0x00000000#32) (ix2 p q)
      = ∑ k : Fin 192, l (ix2 p k) * r (ix2 q k) := by
  simp only [matmul]
  rw [Ideal.matmul_constant_zero_apply, ← Equiv.sum_comp (ValueIdx.contrEquiv1 dK 192 rfl rfl).symm]
  refine Finset.sum_congr rfl fun k _ => ?_
  have hk := ValueIdx.contrEquiv1_symm_val dK 192 rfl rfl k
  have el : dK.lhsIdx (ix2 p q) ((ValueIdx.contrEquiv1 dK 192 rfl rfl).symm k) = ix2 p k := funext fun a => Fin.ext (by
    match a with
    | ⟨0, _⟩ => exact lhs_row _ _
    | ⟨1, _⟩ => exact (lhs_col _ _).trans hk)
  have er : dK.rhsIdx (ix2 p q) ((ValueIdx.contrEquiv1 dK 192 rfl rfl).symm k) = ix2 q k := funext fun a => Fin.ext (by
    match a with
    | ⟨0, _⟩ => exact rhs_row _ _
    | ⟨1, _⟩ => exact (rhs_col _ _).trans hk)
  rw [el, er]

/-- The body's store at row `p`, column `q`: the halved product of row `p` of the first block with row `q` of
    the second. -/
theorem pay_apply (x0 : Vec Ideal S1000x192 .bf16) (x1 : Vec Ideal S3200x192 .bf16) (p : Fin 1000) (q : Fin 3200) :
    k0_pay1 (F := Ideal) x0 x1 (ix2 p q) = (∑ k : Fin 192, x0 (ix2 p k) * x1 (ix2 q k)) * half := by
  unfold k0_pay1
  show matmul (F := Ideal) dK none (shapeCast S1000x192 x0 shapeCasts_S1000x192_S1000x192)
      (shapeCast S3200x192 x1 shapeCasts_S3200x192_S3200x192) (constant (F := Ideal) S1000x3200 .f32 0x00000000#32) (ix2 p q) * half = _
  rw [product_apply, shapeCast_self, shapeCast_self]

end Cert.KernelIdeal.Gram

end
-- ==== Proof.GramArray.lean ====
/-
  From the region's blocks to the whole output array, at the ideal values.

  Let A be the 16000 × 192 matrix the region finds behind its two reading windows, and

      G(A)[r, s] = ( Σ_{k < 192} A[r,k] · A[s,k] ) · ½.

  At grid point t = (i, j): window 0's block is rows 1000·i … 1000·i + 999 of A (all 192 columns), window 1's block is
  rows 3200·j … 3200·j + 3199 of A, and window 2's block is rows 1000·i … and columns 3200·j … of the output. Row p of
  the first block is row 1000·i + p of A, row q of the second is row 3200·j + q of A, so what point t writes back is
  exactly G(A) restricted to window 2's block. Every point writes back, and the 16 × 5 blocks tile the output:
  entry (r, s) lies in the block of the point (r / 1000, s / 3200). Hence the output array ends at G(A).
-/
import proofs.«167292_j14035953123515_1_alg».proof.Proof.RegionKernelIdeal
import proofs.«167292_j14035953123515_1_alg».proof.Proof.GramPayload

set_option maxRecDepth 16384

noncomputable section

namespace Cert.KernelIdeal.Gram

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- Half the Gram matrix of A, entry by entry. -/
def gramOf (A : S16000x192.Idx → EReal) : S16000x16000.Idx → EReal := fun i =>
  (∑ k : Fin 192, A (ix2 (i 0) k) * A (ix2 (i 1) k)) * half

theorem zero_offsets : (![0, 0] : Fin 2 → Nat) = fun _ => 0 := funext fun a => by fin_cases a <;> rfl

/-- The three index maps over the 80 grid points: the first reader's row block is the output's row block, the second
    reader's row block is the output's column block, both readers sit at column block 0, and the output's block
    indices stay below 16 and 5. -/
theorem block_indices : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 4 :=
  (by decide +kernel : ∀ t : Fin grid0.N, _)

/-- Every one of the 16 × 5 output blocks is some grid point's. -/
theorem every_block : ∀ (q0 : Fin 16) (q1 : Fin 5), ∃ t : Fin cfg0.N, win0_2.index t = ![q0.val, q1.val] :=
  (by decide +kernel : ∀ (q0 : Fin 16) (q1 : Fin 5), ∃ t : Fin grid0.N, win0_2.index t = ![q0.val, q1.val])

/-- What point `t` writes back is G(A) on the output window's block. -/
theorem flushed_eq (c : Dev nD) (t : Fin cfg0.N) :
    (gramDat V c).flushed 2 t = ((cfg0.win 2).blk t).view.read (Elt Ideal) (gramOf (V c main_v45)) := by
  show (cfg0.win 2).cut (grid0.coords t) ((gramDat V c).after 2 t) = _
  rw [after_out]
  unfold halfGram
  rw [View.canon_unit_zero zero_offsets]
  simp only [View.ld_unit_zero (S := S1000x192) zero_offsets, View.ld_unit_zero (S := S3200x192) zero_offsets]
  obtain ⟨e0, e1, e2, e3, e4, e5⟩ := block_indices t
  funext j
  obtain ⟨p, q, rfl⟩ : ∃ (p : Fin 1000) (q : Fin 3200), j = ix2 p q := ⟨j 0, j 1, eq_ix2 j⟩
  show k0_pay1 (F := Ideal) (blockAt V c 0 t) (blockAt V c 1 t) (ix2 p q)
    = gramOf (V c main_v45) (((cfg0.win 2).blk t).view.emb (ix2 p q))
  refine (pay_apply (blockAt V c 0 t) (blockAt V c 1 t) p q).trans ?_
  unfold gramOf
  refine congrArg (· * half) (Finset.sum_congr rfl fun k _ => ?_)
  have h0 : blockAt V c 0 t (ix2 p k) = V c main_v45 (ix2 ((((cfg0.win 2).blk t).view.emb (ix2 p q)) 0) k) := by
    show V c main_v45 (((cfg0.win 0).blk t).view.emb (ix2 p k)) = _
    refine congrArg (V c main_v45) (funext fun a => Fin.ext ?_)
    match a with
    | ⟨0, _⟩ => show win0_0.index t (0 : Fin 2) * 1000 + 1 * p.val = win0_2.index t (0 : Fin 2) * 1000 + 1 * p.val; omega
    | ⟨1, _⟩ => show win0_0.index t (1 : Fin 2) * 192 + 1 * k.val = k.val; omega
  have h1 : blockAt V c 1 t (ix2 q k) = V c main_v45 (ix2 ((((cfg0.win 2).blk t).view.emb (ix2 p q)) 1) k) := by
    show V c main_v45 (((cfg0.win 1).blk t).view.emb (ix2 q k)) = _
    refine congrArg (V c main_v45) (funext fun a => Fin.ext ?_)
    match a with
    | ⟨0, _⟩ => show win0_1.index t (0 : Fin 2) * 3200 + 1 * q.val = win0_2.index t (1 : Fin 2) * 3200 + 1 * q.val; omega
    | ⟨1, _⟩ => show win0_1.index t (1 : Fin 2) * 192 + 1 * k.val = k.val; omega
  rw [h0, h1]

/-- An entry of the output is in point `t`'s block iff each coordinate is in the block's range on its axis. -/
theorem mem_block (t : Fin cfg0.N) (i : S16000x16000.Idx) :
    i ∈ ((cfg0.win 2).blk t).view.set ↔ ∀ a : Fin 2, win0_2.index t a * S1000x3200.size a ≤ (i a).val ∧ (i a).val < win0_2.index t a * S1000x3200.size a + S1000x3200.size a := by
  show i ∈ ((View.whole main_v46).slice (win0_2.rect t)).set ↔ _
  rw [View.set_slice_whole, Rect.mem_set_unit]
  exact Iff.rfl

/-- Every entry of the output is in the block of some point, and every point writes back. -/
theorem blocks_cover (i : S16000x16000.Idx) :
    ∃ t : Fin cfg0.N, (cfg0.win 2).flush t = true ∧ i ∈ ((cfg0.win 2).blk t).view.set := by
  have hi0 : (i 0).val < 16000 := (i 0).isLt
  have hi1 : (i 1).val < 16000 := (i 1).isLt
  obtain ⟨t, ht⟩ := every_block ⟨(i 0).val / 1000, by omega⟩ ⟨(i 1).val / 3200, by omega⟩
  have q0 : win0_2.index t (0 : Fin 2) = (i 0).val / 1000 := congrFun ht 0
  have q1 : win0_2.index t (1 : Fin 2) = (i 1).val / 3200 := congrFun ht 1
  refine ⟨t, flush0_2 t, ?_⟩
  rw [mem_block]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 3200 ≤ (i 1).val ∧ (i 1).val < win0_2.index t (1 : Fin 2) * 3200 + 3200; omega

/-- THE OUTPUT ARRAY after the region: half the Gram matrix of the matrix the region found. -/
theorem output_final (c : Dev nD) : (gramDat V c).arrAt 2 cfg0.N = gramOf (V c main_v45) :=
  (gramDat V c).arrAt_eq_of_cover 2 (gramOf (V c main_v45)) (fun t _ => flushed_eq V c t) blocks_cover

end Cert.KernelIdeal.Gram

end
-- ==== Proof.LibGramBeside.lean ====
/-
  The Gram matrix of a matrix made of two blocks of columns, on the extended reals.

  Let h be a 16000 × 64 matrix and x a 16000 × 128 matrix, and A = [h | x] the 16000 × 192 matrix whose row r is
  row r of h followed by row r of x. Then for all rows r, s

      Σ_{k < 192} A[r,k] · A[s,k]  =  Σ_{k < 64} h[r,k] · h[s,k]  +  Σ_{k < 128} x[r,k] · x[s,k],

  because a finite sum may be cut into the sum over its first 64 terms and the sum over the rest. Only the
  commutative-monoid laws of addition are used, so the identity holds on the extended reals as it stands, with
  infinite entries allowed: nothing is distributed and nothing is cancelled.
-/
import Idealize.ShloMosaic.PureOps.Ideal.Laws
import Idealize.ShloMosaic.Lib.ValueIdx

noncomputable section

namespace Cert.GramSpec

open Idealize.ShloMosaic Idealize.ShloMosaic.ValueIdx
open scoped BigOperators

/-- Entry (r, k) of [h | x]: column k of h when k < 64, column k − 64 of x otherwise. -/
def beside (h : (⟨2, ![16000, 64]⟩ : Shape).Idx → EReal) (x : (⟨2, ![16000, 128]⟩ : Shape).Idx → EReal)
    (r : Fin 16000) (k : Fin 192) : EReal :=
  if hk : k.val < 64 then h (ix2 r ⟨k.val, hk⟩) else x (ix2 r ⟨k.val - 64, by have := k.isLt; omega⟩)

theorem beside_left (h : (⟨2, ![16000, 64]⟩ : Shape).Idx → EReal) (x : (⟨2, ![16000, 128]⟩ : Shape).Idx → EReal)
    (r : Fin 16000) (k : Fin 64) : beside h x r (Fin.castAdd 128 k) = h (ix2 r k) := by
  unfold beside
  rw [dif_pos (show (Fin.castAdd 128 k).val < 64 from k.isLt)]
  rfl

theorem beside_right (h : (⟨2, ![16000, 64]⟩ : Shape).Idx → EReal) (x : (⟨2, ![16000, 128]⟩ : Shape).Idx → EReal)
    (r : Fin 16000) (k : Fin 128) : beside h x r (Fin.natAdd 64 k) = x (ix2 r k) := by
  unfold beside
  rw [dif_neg (show ¬ (Fin.natAdd 64 k).val < 64 by simp [Fin.natAdd])]
  congr 2
  apply Fin.ext
  simp [Fin.natAdd]

/-- The Gram entry of [h | x] is the Gram entry of h plus the Gram entry of x. -/
theorem gram_beside (h : (⟨2, ![16000, 64]⟩ : Shape).Idx → EReal) (x : (⟨2, ![16000, 128]⟩ : Shape).Idx → EReal)
    (r s : Fin 16000) :
    ∑ k : Fin 192, beside h x r k * beside h x s k
      = (∑ k : Fin 64, h (ix2 r k) * h (ix2 s k)) + ∑ k : Fin 128, x (ix2 r k) * x (ix2 s k) := by
  have e := Fin.sum_univ_add (a := 64) (b := 128) (fun k : Fin (64 + 128) => beside h x r k * beside h x s k)
  refine e.trans ?_
  simp only [beside_left, beside_right]

/-- The result the two programs are compared at: half the sum of the two Gram matrices, entry by entry. -/
def halfGrams (half : EReal) (h : (⟨2, ![16000, 64]⟩ : Shape).Idx → EReal) (x : (⟨2, ![16000, 128]⟩ : Shape).Idx → EReal) :
    (⟨2, ![16000, 16000]⟩ : Shape).Idx → EReal := fun i =>
  ((∑ k : Fin 64, h (ix2 (i 0) k) * h (ix2 (i 1) k)) + ∑ k : Fin 128, x (ix2 (i 0) k) * x (ix2 (i 1) k)) * half

end Cert.GramSpec

end
-- ==== Proof.GramResult.lean ====
/-
  Half the Gram matrix of [h | x] is half the sum of the Gram matrices of h and of x.

  The matrix behind the kernel's reading windows is the narrowing to bf16 of the concatenation of h and x along the
  columns; at the ideal values narrowing changes no entry, and entry (r, k) of the concatenation is h[r,k] for k < 64
  and x[r,k − 64] otherwise. So each Gram entry of that matrix is a sum over 192 columns that splits into the sum
  over the 64 columns of h and the sum over the 128 columns of x.
-/
import proofs.«167292_j14035953123515_1_alg».proof.Proof.GramArray
import proofs.«167292_j14035953123515_1_alg».proof.Proof.LibGramBeside

set_option maxRecDepth 16384

noncomputable section

namespace Cert.KernelIdeal.Gram

open Idealize.ShloMosaic Idealize.ShloMosaic.ValueIdx
open Cert.KernelIdeal Cert.KernelIdeal.Gen
open scoped BigOperators

/-- Entry (r, k) of h beside x. -/
theorem beside_eq (h : S16000x64.Idx → EReal) (x : S16000x128.Idx → EReal) (r : Fin 16000) (k : Fin 192) :
    concatenate S16000x192 1 [⟨S16000x64, h⟩, ⟨S16000x128, x⟩] concatenates_S16000x64_S16000x128_S16000x192_d1 (ix2 r k)
      = Cert.GramSpec.beside h x r k := by
  unfold Cert.GramSpec.beside
  split
  · next hk =>
    exact concatenate_pair_apply_left 1 h x _ (ix2 r k) rfl (ix2 r ⟨k.val, hk⟩) (fun b => by
      match b with | ⟨0, _⟩ => rfl | ⟨1, _⟩ => rfl)
  · next hk =>
    exact concatenate_pair_apply_right 1 h x _ (ix2 r k) rfl rfl (ix2 r ⟨k.val - 64, by have := k.isLt; omega⟩)
      (fun b hb => by
        match b, hb with
        | ⟨0, _⟩, _ => rfl
        | ⟨1, _⟩, hb => exact absurd rfl hb)
      (by show (k.val - 64) + 64 = k.val; omega)

/-- Half the Gram matrix of the narrowing of [h | x], entry by entry. -/
theorem gram_of_beside (h : S16000x64.Idx → EReal) (x : S16000x128.Idx → EReal) :
    gramOf (truncf (F := Ideal) .bf16 (concatenate S16000x192 1 [⟨S16000x64, h⟩, ⟨S16000x128, x⟩]
        concatenates_S16000x64_S16000x128_S16000x192_d1) bitsLt_bf16_f32)
      = Cert.GramSpec.halfGrams half h x := by
  funext i
  unfold gramOf Cert.GramSpec.halfGrams
  rw [← Cert.GramSpec.gram_beside h x (i 0) (i 1)]
  refine congrArg (· * half) (Finset.sum_congr rfl fun k _ => ?_)
  exact congrArg₂ (· * ·) (beside_eq h x (i 0) k) (beside_eq h x (i 1) k)

end Cert.KernelIdeal.Gram

end
-- ==== Proof.ValueRun.lean ====
/-
  Both results of the idealized kernel, read off its run.

  The first result is the region's output array, which the last host stretch leaves alone: half the Gram matrix of
  the narrowing of [h | x], that is, half the sum of the Gram matrices of h and x. The second is the batch
  normalisation of h. Both are stated over the reference's stage functions applied to the kernel's own arguments,
  which is the form the reference's run is read at.
-/
import proofs.«167292_j14035953123515_1_alg».proof.Proof.KeptKernelIdeal
import proofs.«167292_j14035953123515_1_alg».proof.Proof.HostExit
import proofs.«167292_j14035953123515_1_alg».proof.Proof.GramResult

set_option maxRecDepth 16384

noncomputable section

namespace Cert.KernelIdeal.Gram

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first result's buffer ends at half the sum of the two Gram matrices. -/
theorem out_final (c : Dev nD) :
    W3 m ρ c (Proc.devRef .tc main_v46)
      = Cert.GramSpec.halfGrams half (Cert.ReferenceIdeal.Read.val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
          (m ((c.tc : Thread nD τ).loc main_arg0)) :=
  calc W3 m ρ c (Proc.devRef .tc main_v46)
    _ = W2 m ρ c (Proc.devRef .tc main_v46) := out_kept m ρ c
    _ = (gramDat (V1 m ρ) c).arrAt 2 cfg0.N := W2_out m ρ c
    _ = gramOf (V1 m ρ c main_v45) := output_final (V1 m ρ) c
    _ = gramOf (W1 m ρ c (Proc.devRef .tc main_v45)) := rfl
    _ = _ := by rw [entry_A m ρ c]; unfold hOf; exact gram_of_beside _ _

/-- THE VALUE RUN: every weakly fair execution of the idealized kernel terminates with the first result at half the
    sum of the Gram matrices of h and x, the second at the normalisation of h, and the arguments as launched. -/
theorem value_run : θ_run defs (onTc (τ := τ) (main (F := Ideal))) ⟨m, fun _ => 0, ρ⟩ (fun r => ∀ c : Dev nD,
      r.2.mem ((c.tc : Thread nD τ).loc main_v46)
        = Cert.GramSpec.halfGrams half (Cert.ReferenceIdeal.Read.val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
            (m ((c.tc : Thread nD τ).loc main_arg0))
      ∧ r.2.mem ((c.tc : Thread nD τ).loc main_v71)
        = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v46 (by decide))).trans (out_final m ρ c),
      (h c _ (mem_uc main_v71 (by decide))).trans (exit_hn m ρ c),
      (h c _ (mem_uc main_arg0 (by decide))).trans (kept_arg0 m ρ c),
      (h c _ (mem_uc main_arg1 (by decide))).trans (kept_arg1 m ρ c),
      (h c _ (mem_uc main_arg2 (by decide))).trans (kept_arg2 m ρ c),
      (h c _ (mem_uc main_arg3 (by decide))).trans (kept_arg3 m ρ c),
      (h c _ (mem_uc main_arg4 (by decide))).trans (kept_arg4 m ρ c),
      (h c _ (mem_uc main_arg5 (by decide))).trans (kept_arg5 m ρ c),
      (h c _ (mem_uc main_arg6 (by decide))).trans (kept_arg6 m ρ c),
      (h c _ (mem_uc main_arg7 (by decide))).trans (kept_arg7 m ρ c),
      (h c _ (mem_uc main_arg8 (by decide))).trans (kept_arg8 m ρ c),
      (h c _ (mem_uc main_arg9 (by decide))).trans (kept_arg9 m ρ c),
      (h c _ (mem_uc main_arg10 (by decide))).trans (kept_arg10 m ρ c),
      (h c _ (mem_uc main_arg11 (by decide))).trans (kept_arg11 m ρ c)⟩)
    (run_all m ρ)

end Cert.KernelIdeal.Gram

end
-- ==== Proof.RefGram.lean ====
/-
  The reference's first result at the ideal values, entry by entry.

  The reference forms h·hᵀ and x·xᵀ as two matrix products against explicit transposes, adds them and halves the
  sum. Read at row r and column s: the product with the transpose of h contracts column k of row r of h with
  row k of hᵀ at column s, which is column k of row s of h; likewise for x. So the entry is

      ( Σ_{k < 64} h[r,k] · h[s,k] + Σ_{k < 128} x[r,k] · x[s,k] ) · ½,

  with h the reference's own stage for the blended features.
-/
import proofs.«167292_j14035953123515_1_alg».proof.Proof.Gen.ReferenceIdeal.Read
import proofs.«167292_j14035953123515_1_alg».proof.Proof.LibGramBeside

set_option maxRecDepth 16384

noncomputable section

namespace Cert.ReferenceIdeal.Gram

open Cert.ReferenceIdeal Cert.ReferenceIdeal.Read Idealize.ShloMosaic Idealize.ShloMosaic.ValueIdx
open scoped BigOperators

/-- One half, as both programs spell it. -/
abbrev half : EReal := Ideal.ofBits .f32 0x3F000000#32

/-- The reference's first result at entry `i`. -/
theorem ret_apply (x0 : (⟨S16000x128, .f32⟩ : BufTy).Contents (Elt Ideal)) (x1 x2 : (⟨S512000, .i32⟩ : BufTy).Contents (Elt Ideal)) (x3 : (⟨S64x128, .f32⟩ : BufTy).Contents (Elt Ideal)) (x4 : (⟨S64, .f32⟩ : BufTy).Contents (Elt Ideal)) (x5 : (⟨S128x128, .f32⟩ : BufTy).Contents (Elt Ideal)) (x6 : (⟨S128, .f32⟩ : BufTy).Contents (Elt Ideal)) (x7 : (⟨S64x128, .f32⟩ : BufTy).Contents (Elt Ideal)) (x8 : (⟨S64, .f32⟩ : BufTy).Contents (Elt Ideal)) (x9 : (⟨S16000, .f32⟩ : BufTy).Contents (Elt Ideal)) (i : S16000x16000.Idx) :
    val_main_v50 (F := Ideal) x0 x1 x2 x3 x4 x5 x6 x7 x8 x9 i
      = Cert.GramSpec.halfGrams half (val_main_v43 (F := Ideal) x0 x1 x2 x3 x4 x5 x6 x7 x8 x9) x0 i := by
  have e1 : ∀ k : Fin 64, lidx_main_v45 i k = (ix2 (i 0) k : S16000x64.Idx) := fun k => funext fun a => Fin.ext (by
    match a with | ⟨0, _⟩ => rfl | ⟨1, _⟩ => rfl)
  have e2 : ∀ k : Fin 64, idx_main_v44 (ridx_main_v45 i k) = (ix2 (i 1) k : S16000x64.Idx) := fun k => funext fun a => Fin.ext (by
    match a with | ⟨0, _⟩ => rfl | ⟨1, _⟩ => rfl)
  have e3 : ∀ k : Fin 128, lidx_main_v47 i k = (ix2 (i 0) k : S16000x128.Idx) := fun k => funext fun a => Fin.ext (by
    match a with | ⟨0, _⟩ => rfl | ⟨1, _⟩ => rfl)
  have e4 : ∀ k : Fin 128, idx_main_v46 (ridx_main_v47 i k) = (ix2 (i 1) k : S16000x128.Idx) := fun k => funext fun a => Fin.ext (by
    match a with | ⟨0, _⟩ => rfl | ⟨1, _⟩ => rfl)
  rw [val_main_v50_apply, val_main_v48_apply, val_main_v45_apply, val_main_v47_apply, val_main_v49_apply]
  simp only [val_main_v44_apply, val_main_v46_apply, e1, e2, e3, e4]
  unfold Cert.GramSpec.halfGrams val_main_cst_5
  rfl

end Cert.ReferenceIdeal.Gram

end
-- ==== Proof.lean ====
/-
  A graph network's two results: half the sum of two Gram matrices, and a batch normalisation.

  From node features x (16000 × 128), an edge list, and the weights of a skip projection and two graph-convolution
  layers, both programs compute the blended features h (16000 × 64) by the same host operations, and return

      ret = (h·hᵀ + x·xᵀ) · ½        and        hn = the batch normalisation of h.

  They differ in ret only. The reference forms the two products separately, adds them and halves the sum. The kernel
  puts h beside x into one 16000 × 192 matrix A, narrows it to bf16, and a tiled region computes (A·Aᵀ) · ½ block by
  block: at grid point (i, j), block i of 1000 rows of A times the transpose of block j of 3200 rows of A, accumulated
  into zero and halved, written back as block (i, j) of the 16000 × 16000 output. At the ideal values narrowing changes
  no entry, so entry (r, s) of the kernel's ret is (Σ_{k<192} A[r,k]·A[s,k]) · ½, and a sum over the 192 columns of
  [h | x] is the sum over the 64 columns of h plus the sum over the 128 columns of x. That law uses only that
  addition of extended reals is commutative and associative: nothing is distributed or cancelled, so the finiteness
  of the inputs is never used. hn is computed by the same host operations on both sides.

  The region's two reading windows are handed the same array A. Its frame is therefore proved over the launch
  theorem for windows that may share an array: at the region's entry A's share is cut into two halves, one per window,
  and rejoined at the exit; the host stretches around the region run over every unscoped buffer. The same text proves
  the frame of the word-level kernel and of its idealization, which is the program's own text read at the ideal values
  (the ideal pass rewrote nothing, so the preservation claim is empty). The reference's frame is its run with the
  results dropped.
-/
import proofs.«167292_j14035953123515_1_alg».proof.Defs
import proofs.«167292_j14035953123515_1_alg».proof.Proof.Gen.Kernel
import proofs.«167292_j14035953123515_1_alg».proof.Proof.Gen.Kernel.Skeleton
import proofs.«167292_j14035953123515_1_alg».proof.Proof.Gen.Kernel.Launch
import proofs.«167292_j14035953123515_1_alg».proof.Proof.Gen.Kernel.Points
import proofs.«167292_j14035953123515_1_alg».proof.Proof.Gen.KernelIdeal
import proofs.«167292_j14035953123515_1_alg».proof.Proof.Gen.KernelIdeal.Skeleton
import proofs.«167292_j14035953123515_1_alg».proof.Proof.Gen.KernelIdeal.Launch
import proofs.«167292_j14035953123515_1_alg».proof.Proof.Gen.KernelIdeal.Points
import proofs.«167292_j14035953123515_1_alg».proof.Proof.Gen.ReferenceIdeal
import proofs.«167292_j14035953123515_1_alg».proof.Proof.Gen.ReferenceIdeal.Run
import proofs.«167292_j14035953123515_1_alg».proof.Proof.Gen.ReferenceIdeal.Read
import proofs.«167292_j14035953123515_1_alg».proof.Proof.Gen.Pre_finite_inputs
import proofs.«167292_j14035953123515_1_alg».proof.Proof.KeptKernel
import proofs.«167292_j14035953123515_1_alg».proof.Proof.KeptKernelIdeal
import proofs.«167292_j14035953123515_1_alg».proof.Proof.ValueRun
import proofs.«167292_j14035953123515_1_alg».proof.Proof.RefGram
import Idealize.ShloMosaic.Adequacy
import Idealize.ShloMosaic.Init

set_option maxRecDepth 16384

noncomputable section

namespace Cert.Proof

open Idealize.ShloMosaic Idealize.SL.Sem

/-- The word-level kernel runs to the end, faults nowhere, and leaves its arguments as launched. -/
theorem frame_kernel : Cert.frame_Kernel := fun m ρ _ => Cert.Kernel.Gram.frame m ρ

/-- So does its idealization. -/
theorem frame_kernel_ideal : Cert.frame_KernelIdeal := fun m ρ _ => Cert.KernelIdeal.Gram.frame m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- At the ideal values, from memories that agree on the arguments, both programs end with the same two results:
    half the sum of the Gram matrices of h and x, and the normalisation of h. -/
theorem algebraic : Cert.algebraic_KernelIdeal_ReferenceIdeal := by
  intro m ρ m' ρ' _ hagree
  refine ⟨_, _, Cert.KernelIdeal.Gram.value_run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11⟩ := hagree c
    rw [(h c).1, Cert.ReferenceIdeal.Read.val_main_v50_eq, a0, a1, a2, a3, a4, a5, a6, a7, a8, a9]
    funext i
    exact Cert.ReferenceIdeal.Gram.ret_apply _ _ _ _ _ _ _ _ _ _ i
  · obtain ⟨a0, a1, a2, a3, a4, a5, a6, a7, a8, a9, a10, a11⟩ := hagree c
    rw [(h c).2.1, Cert.ReferenceIdeal.Read.val_main_v75_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
